-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x100000 : Shape := ⟨2, ![32, 100000]⟩
abbrev S3200000x1 : Shape := ⟨2, ![3200000, 1]⟩
abbrev S2x3300000 : Shape := ⟨2, ![2, 3300000]⟩
abbrev S3200000 : Shape := ⟨1, ![3200000]⟩
abbrev S_ : Shape := ⟨0, ![]⟩
abbrev S100000x1 : Shape := ⟨2, ![100000, 1]⟩
abbrev S3300000x1 : Shape := ⟨2, ![3300000, 1]⟩
abbrev S3300000 : Shape := ⟨1, ![3300000]⟩
abbrev S1x3300000 : Shape := ⟨2, ![1, 3300000]⟩
abbrev S100000 : Shape := ⟨1, ![100000]⟩

class Facts : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S_S100000x1 : S_.BroadcastsInDim S100000x1 (![] : Fin 0 → Fin S100000x1.rank)
  concatenates_S3200000x1_S100000x1_S3300000x1_d0 : Shape.Concatenates [S3200000x1, S100000x1] S3300000x1 0
  shapeCasts_S3300000x1_S3300000 : S3300000x1.ShapeCasts S3300000
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S_S32x100000 : S_.BroadcastsInDim S32x100000 (![] : Fin 0 → Fin S32x100000.rank)
  reducesTo_S32x100000_S_d0_1 : S32x100000.ReducesTo [0, 1] S_
  h_S_ : 0 < S_.numel
  reducesTo_S3200000x1_S_d0_1 : S3200000x1.ReducesTo [0, 1] S_
  reducesTo_S3300000_S_d0 : S3300000.ReducesTo [0] S_
  gather_S3200000x1_S3200000x1_S3200000x1_1_0_n_n_0_1_11_wf : GatherDims.WF S3200000x1 S3200000x1 S3200000x1 [1] [0] [] [0] [] 1 ![1, 1]
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]

variable [Facts]

def gather_S3200000x1_S3200000x1_S3200000x1_1_0_n_n_0_1_11 : GatherDims S3200000x1 S3200000x1 S3200000x1 where
  offsetDims := [1]
  collapsedSliceDims := [0]
  operandBatchingDims := []
  startIndicesBatchingDims := []
  startIndexMap := [0]
  indexVectorDim := 1
  sliceSizes := ![1, 1]
  wf := gather_S3200000x1_S3200000x1_S3200000x1_1_0_n_n_0_1_11_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def fn_part3 {F : FTy → Type} [FloatOps F] (main_v32 : FVec F S3300000 .f32) (main_v39 : FVec F S3300000 .f32) (main_v48 : IVec S_ 1) (main_v53 : IVec S3300000 1) (main_c_15 : IVec S_ 1) : IVec S_ 1 :=
  let main_v54 : IVec S_ 1 := (fun x v => Host.reduce IntOp.andi x v reducesTo_S3300000_S_d0 h_S_) main_v53 main_c_15
  let main_v55 : IVec S_ 1 := andi main_v48 main_v54
  let main_v56 : FVec F S3300000 .f32 := mulf main_v39 main_v32
  let main_cst_16 : FVec F S_ .f32 := constant S_ .f32 0x00000000#32
  let main_v57 : FVec F S3300000 .f32 := broadcastInDim S3300000 ![] bcast_S_S3300000 main_cst_16
  let main_v58 : IVec S3300000 1 := cmpf .ogt main_v56 main_v57
  let main_c_17 : IVec S_ 1 := constantI S_ 1 1#1
  let main_v59 : IVec S_ 1 := (fun x v => Host.reduce IntOp.andi x v reducesTo_S3300000_S_d0 h_S_) main_v58 main_c_17
  let main_v60 : IVec S_ 1 := andi main_v55 main_v59
  main_v60

def fn_part2 {F : FTy → Type} [FloatOps F] (main_arg0 : FVec F S32x100000 .f32) (main_arg1 : FVec F S3200000x1 .f32) (main_v22 : IVec S3300000 32) (main_v25 : FVec F S100000 .f32) (main_v32 : FVec F S3300000 .f32) (main_v34 : IVec S3300000 1) (main_v36 : IVec S3300000 32) : IVec S_ 1 :=
  let main_v37 : IVec S3300000 32 := select main_v34 main_v36 main_v22
  let main_v38 : IVec S3300000x1 32 := broadcastInDim S3300000x1 ![0] bcast_S3300000_S3300000x1_0 main_v37
  let main_v39 : FVec F S3300000 .f32 := (fun x i => Host.gather gather_S100000_S3300000x1_S3300000_n_0_n_n_0_1_1 x i) main_v25 main_v38
  let main_v40 : FVec F S32x100000 .f32 := Host.absf main_arg0
  let main_cst_9 : FVec F S_ .f32 := constant S_ .f32 0x7F800000#32
  let main_v41 : FVec F S32x100000 .f32 := broadcastInDim S32x100000 ![] bcast_S_S32x100000 main_cst_9
  let main_v42 : IVec S32x100000 1 := cmpf .olt main_v40 main_v41
  let main_c_10 : IVec S_ 1 := constantI S_ 1 1#1
  let main_v43 : IVec S_ 1 := (fun x v => Host.reduce IntOp.andi x v reducesTo_S32x100000_S_d0_1 h_S_) main_v42 main_c_10
  let main_v44 : FVec F S3200000x1 .f32 := Host.absf main_arg1
  let main_cst_11 : FVec F S_ .f32 := constant S_ .f32 0x7F800000#32
  let main_v45 : FVec F S3200000x1 .f32 := broadcastInDim S3200000x1 ![] bcast_S_S3200000x1 main_cst_11
  let main_v46 : IVec S3200000x1 1 := cmpf .olt main_v44 main_v45
  let main_c_12 : IVec S_ 1 := constantI S_ 1 1#1
  let main_v47 : IVec S_ 1 := (fun x v => Host.reduce IntOp.andi x v reducesTo_S3200000x1_S_d0_1 h_S_) main_v46 main_c_12
  let main_v48 : IVec S_ 1 := andi main_v43 main_v47
  let main_c_13 : IVec S_ 32 := constantI S_ 32 0#32
  let main_v49 : IVec S3300000 32 := broadcastInDim S3300000 ![] bcast_S_S3300000 main_c_13
  let main_v50 : IVec S3300000 1 := cmpi .sge main_v22 main_v49
  let main_c_14 : IVec S_ 32 := constantI S_ 32 100000#32
  let main_v51 : IVec S3300000 32 := broadcastInDim S3300000 ![] bcast_S_S3300000 main_c_14
  let main_v52 : IVec S3300000 1 := cmpi .slt main_v22 main_v51
  let main_v53 : IVec S3300000 1 := andi main_v50 main_v52
  let main_c_15 : IVec S_ 1 := constantI S_ 1 1#1
  fn_part3 (F := F) main_v32 main_v39 main_v48 main_v53 main_c_15

def fn_part1 {F : FTy → Type} [FloatOps F] (main_arg0 : FVec F S32x100000 .f32) (main_arg1 : FVec F S3200000x1 .f32) (main_arg2 : IVec S2x3300000 32) (main_v17 : FVec F S3300000x1 .f32) : IVec S_ 1 :=
  let main_v18 : FVec F S3300000 .f32 := shapeCast S3300000 main_v17 shapeCasts_S3300000x1_S3300000
  let main_v19 : IVec S1x3300000 32 := (extractStridedSlice S1x3300000 ![0, 0] · slices_S2x3300000_S1x3300000_0_0) main_arg2
  let main_v20 : IVec S3300000 32 := shapeCast S3300000 main_v19 shapeCasts_S1x3300000_S3300000
  let main_v21 : IVec S1x3300000 32 := (extractStridedSlice S1x3300000 ![1, 0] · slices_S2x3300000_S1x3300000_1_0) main_arg2
  let main_v22 : IVec S3300000 32 := shapeCast S3300000 main_v21 shapeCasts_S1x3300000_S3300000
  let main_cst_4 : FVec F S_ .f32 := constant S_ .f32 0x00000000#32
  let main_v23 : FVec F S100000 .f32 := broadcastInDim S100000 ![] bcast_S_S100000 main_cst_4
  let main_v24 : IVec S3300000x1 32 := broadcastInDim S3300000x1 ![0] bcast_S3300000_S3300000x1_0 main_v22
  let main_v25 : FVec F S100000 .f32 := (fun x i u => Host.scatterAdd scatter_S100000_S3300000x1_S3300000_n_0_0_1 x i u) main_v23 main_v24 main_v18
  let main_c_5 : IVec S_ 32 := constantI S_ 32 0#32
  let main_v26 : IVec S3300000 32 := broadcastInDim S3300000 ![] bcast_S_S3300000 main_c_5
  let main_v27 : IVec S3300000 1 := cmpi .slt main_v20 main_v26
  let main_c_6 : IVec S_ 32 := constantI S_ 32 100000#32
  let main_v28 : IVec S3300000 32 := broadcastInDim S3300000 ![] bcast_S_S3300000 main_c_6
  let main_v29 : IVec S3300000 32 := addi main_v20 main_v28
  let main_v30 : IVec S3300000 32 := select main_v27 main_v29 main_v20
  let main_v31 : IVec S3300000x1 32 := broadcastInDim S3300000x1 ![0] bcast_S3300000_S3300000x1_0 main_v30
  let main_v32 : FVec F S3300000 .f32 := (fun x i => Host.gather gather_S100000_S3300000x1_S3300000_n_0_n_n_0_1_1 x i) main_v25 main_v31
  let main_c_7 : IVec S_ 32 := constantI S_ 32 0#32
  let main_v33 : IVec S3300000 32 := broadcastInDim S3300000 ![] bcast_S_S3300000 main_c_7
  let main_v34 : IVec S3300000 1 := cmpi .slt main_v22 main_v33
  let main_c_8 : IVec S_ 32 := constantI S_ 32 100000#32
  let main_v35 : IVec S3300000 32 := broadcastInDim S3300000 ![] bcast_S_S3300000 main_c_8
  let main_v36 : IVec S3300000 32 := addi main_v22 main_v35
  fn_part2 (F := F) main_arg0 main_arg1 main_v22 main_v25 main_v32 main_v34 main_v36

def fn {F : FTy → Type} [FloatOps F] (main_arg0 : FVec F S32x100000 .f32) (main_arg1 : FVec F S3200000x1 .f32) (main_arg2 : IVec S2x3300000 32) (main_arg3 : IVec S3200000 32) : IVec S_ 1 :=
  let main_c : IVec S_ 32 := constantI S_ 32 0#32
  let main_v0 : IVec S3200000 32 := broadcastInDim S3200000 ![] bcast_S_S3200000 main_c
  let main_v1 : IVec S3200000 1 := cmpi .slt main_arg3 main_v0
  let main_c_0 : IVec S_ 32 := constantI S_ 32 3200000#32
  let main_v2 : IVec S3200000 32 := broadcastInDim S3200000 ![] bcast_S_S3200000 main_c_0
  let main_v3 : IVec S3200000 32 := addi main_arg3 main_v2
  let main_v4 : IVec S3200000 32 := select main_v1 main_v3 main_arg3
  let main_v5 : IVec S3200000x1 32 := broadcastInDim S3200000x1 ![0] bcast_S3200000_S3200000x1_0 main_v4
  let main_v6 : FVec F S3200000x1 .f32 := (fun x i => Host.gather gather_S3200000x1_S3200000x1_S3200000x1_1_0_n_n_0_1_11 x i) main_arg1 main_v5
  let main_v7 : FVec F S3200000x1 .f32 := addf main_v6 main_arg1
  let main_cst : FVec F S_ .f32 := constant S_ .f32 0x3F000000#32
  let main_v8 : FVec F S3200000x1 .f32 := broadcastInDim S3200000x1 ![] bcast_S_S3200000x1 main_cst
  let main_v9 : FVec F S3200000x1 .f32 := mulf main_v7 main_v8
  let main_v10 : FVec F S3200000x1 .f32 := Host.negf main_v9
  let main_v11 : FVec F S3200000x1 .f32 := Host.exp main_v10
  let main_cst_1 : FVec F S_ .f32 := constant S_ .f32 0x3F800000#32
  let main_v12 : FVec F S3200000x1 .f32 := broadcastInDim S3200000x1 ![] bcast_S_S3200000x1 main_cst_1
  let main_v13 : FVec F S3200000x1 .f32 := addf main_v12 main_v11
  let main_cst_2 : FVec F S_ .f32 := constant S_ .f32 0x3F800000#32
  let main_v14 : FVec F S3200000x1 .f32 := broadcastInDim S3200000x1 ![] bcast_S_S3200000x1 main_cst_2
  let main_v15 : FVec F S3200000x1 .f32 := Host.divf main_v14 main_v13
  let main_cst_3 : FVec F S_ .f32 := constant S_ .f32 0x3F800000#32
  let main_v16 : FVec F S100000x1 .f32 := broadcastInDim S100000x1 ![] bcast_S_S100000x1 main_cst_3
  let main_v17 : FVec F S3300000x1 .f32 := (fun a b => concatenate S3300000x1 0 [⟨S3200000x1, a⟩, ⟨S100000x1, b⟩] concatenates_S3200000x1_S100000x1_S3300000x1_d0) main_v15 main_v16
  fn_part1 (F := F) main_arg0 main_arg1 main_arg2 main_v17
-- ==== Kernel.lean ====
abbrev S32x100000 : Shape := ⟨2, ![32, 100000]⟩
abbrev S3200000x1 : Shape := ⟨2, ![3200000, 1]⟩
abbrev S2x3300000 : Shape := ⟨2, ![2, 3300000]⟩
abbrev S3200000 : Shape := ⟨1, ![3200000]⟩
abbrev S1x3300000 : Shape := ⟨2, ![1, 3300000]⟩
abbrev S3300000 : Shape := ⟨1, ![3300000]⟩
abbrev S_ : Shape := ⟨0, ![]⟩
abbrev S100000 : Shape := ⟨1, ![100000]⟩
abbrev S3300000x1 : Shape := ⟨2, ![3300000, 1]⟩
abbrev S32x3300000 : Shape := ⟨2, ![32, 3300000]⟩
abbrev S32x65536 : Shape := ⟨2, ![32, 65536]⟩
abbrev S1x65536 : Shape := ⟨2, ![1, 65536]⟩

abbrev nBuf : Space → Nat
  | .hbm => 101
  | .vmem => 10
  | .smem => 0
  | _ => 0

abbrev bufTy : (tb : Table) → Fin (tcTables nBuf tb) → BufTy
  | .hbm, ⟨0, _⟩ => ⟨S32x100000, .f32⟩
  | .hbm, ⟨1, _⟩ => ⟨S3200000x1, .f32⟩
  | .hbm, ⟨2, _⟩ => ⟨S2x3300000, .i32⟩
  | .hbm, ⟨3, _⟩ => ⟨S3200000, .i32⟩
  | .hbm, ⟨4, _⟩ => ⟨S1x3300000, .i32⟩
  | .hbm, ⟨5, _⟩ => ⟨S3300000, .i32⟩
  | .hbm, ⟨6, _⟩ => ⟨S1x3300000, .i32⟩
  | .hbm, ⟨7, _⟩ => ⟨S3300000, .i32⟩
  | .hbm, ⟨8, _⟩ => ⟨S3200000, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000, .f32⟩
  | .hbm, ⟨18, _⟩ => ⟨S3200000, .f32⟩
  | .hbm, ⟨19, _⟩ => ⟨S_, .f32⟩
  | .hbm, ⟨20, _⟩ => ⟨S3200000, .f32⟩
  | .hbm, ⟨21, _⟩ => ⟨S3200000, .f32⟩
  | .hbm, ⟨22, _⟩ => ⟨S3200000, .f32⟩
  | .hbm, ⟨23, _⟩ => ⟨S3200000, .f32⟩
  | .hbm, ⟨24, _⟩ => ⟨S_, .f32⟩
  | .hbm, ⟨25, _⟩ => ⟨S3200000, .f32⟩
  | .hbm, ⟨26, _⟩ => ⟨S3200000, .f32⟩
  | .hbm, ⟨27, _⟩ => ⟨S_, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S100000, .f32⟩
  | .hbm, ⟨32, _⟩ => ⟨S3300000, .f32⟩
  | .hbm, ⟨33, _⟩ => ⟨S_, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S100000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000, .f32⟩
  | .hbm, ⟨62, _⟩ => ⟨S3300000, .f32⟩
  | .hbm, ⟨63, _⟩ => ⟨S3300000, .f32⟩
  | .hbm, ⟨64, _⟩ => ⟨S3300000, .f32⟩
  | .hbm, ⟨65, _⟩ => ⟨S3300000, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S32x3300000, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S32x3300000, .f32⟩
  | .hbm, ⟨84, _⟩ => ⟨S1x3300000, .f32⟩
  | .hbm, ⟨85, _⟩ => ⟨S1x3300000, .f32⟩
  | .hbm, ⟨86, _⟩ => ⟨S32x3300000, .f32⟩
  | .hbm, ⟨87, _⟩ => ⟨S_, .f32⟩
  | .hbm, ⟨88, _⟩ => ⟨S32x100000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S32x100000, .f32⟩
  | .hbm, ⟨98, _⟩ => ⟨S_, .f32⟩
  | .hbm, ⟨99, _⟩ => ⟨S32x100000, .f32⟩
  | .hbm, ⟨100, _⟩ => ⟨S32x100000, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S1x65536, .f32⟩
  | .local _ .vmem, ⟨5, _⟩ => ⟨S1x65536, .f32⟩
  | .local _ .vmem, ⟨6, _⟩ => ⟨S1x65536, .f32⟩
  | .local _ .vmem, ⟨7, _⟩ => ⟨S1x65536, .f32⟩
  | .local _ .vmem, ⟨8, _⟩ => ⟨S32x65536, .f32⟩
  | .local _ .vmem, ⟨9, _⟩ => ⟨S32x65536, .f32⟩
  | _, _ => ⟨S32x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_c_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_c_16 : Ref sig .tc := ⟨.hbm, 89, rfl⟩
abbrev main_v67 : Ref sig .tc := ⟨.hbm, 90, rfl⟩
abbrev main_v68 : Ref sig .tc := ⟨.hbm, 91, rfl⟩
abbrev main_c_17 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_18 : Ref sig .tc := ⟨.hbm, 98, rfl⟩
abbrev main_v74 : Ref sig .tc := ⟨.hbm, 99, rfl⟩
abbrev main_v75 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  shapeCasts_S3200000x1_S3200000 : S3200000x1.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  concatenates_S3200000_S100000_S3300000_d0 : Shape.Concatenates [S3200000, S100000] S3300000 0
  bcast_S_S3300000 : S_.BroadcastsInDim S3300000 (![] : Fin 0 → Fin S3300000.rank)
  bcast_S3300000_S3300000x1_0 : S3300000.BroadcastsInDim S3300000x1 (![0] : Fin 1 → Fin S3300000x1.rank)
  shapeCasts_S3300000_S1x3300000 : S3300000.ShapeCasts S1x3300000
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  broadcasts_S1x65536_S32x65536 : S1x65536.Broadcasts S32x65536
  bcast_S_S32x100000 : S_.BroadcastsInDim S32x100000 (![] : Fin 0 → Fin S32x100000.rank)
  gather_S3200000_S3200000x1_S3200000_n_0_n_n_0_1_1_wf : GatherDims.WF S3200000 S3200000x1 S3200000 [] [0] [] [0] [] 1 ![1]
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S32x100000_S3300000x1_S32x3300000_0_1_n_n_1_1_321_wf : GatherDims.WF S32x100000 S3300000x1 S32x3300000 [0] [1] [] [1] [] 1 ![32, 1]
  scatter_S32x100000_S3300000x1_S32x3300000_0_1_1_1_wf : ScatterDims.WF S32x100000 S3300000x1 S32x3300000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x65536.size a < S32x3300000.size a
  hwx0_0 : ∀ i : grid0.Coords, EltTy.bits .f32 = 32 ∨ (Rect.unit (s := S32x3300000) (fun a => cc0_transform_0 i a * S32x65536.size a) (fun a => (Pipeline.Clip.of (cc0_transform_0 i a) (S32x65536.size a) (S32x3300000.size a)).extent (S32x65536.size a)) fun a => Pipeline.Clip.inb (Pipeline.Clip.ok_of (hstart0_0 i a))).WholeWords (EltTy.packing .f32)
  hwxs0_0 : ∀ i : grid0.Coords, EltTy.bits .f32 = 32 ∨ (Rect.unit (s := S32x65536) (fun _ => 0) (fun a => (Pipeline.Clip.of (cc0_transform_0 i a) (S32x65536.size a) (S32x3300000.size a)).extent (S32x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x65536.size a < S32x3300000.size a
  hwx0_1 : ∀ i : grid0.Coords, EltTy.bits .f32 = 32 ∨ (Rect.unit (s := S32x3300000) (fun a => cc0_transform_1 i a * S32x65536.size a) (fun a => (Pipeline.Clip.of (cc0_transform_1 i a) (S32x65536.size a) (S32x3300000.size a)).extent (S32x65536.size a)) fun a => Pipeline.Clip.inb (Pipeline.Clip.ok_of (hstart0_1 i a))).WholeWords (EltTy.packing .f32)
  hwxs0_1 : ∀ i : grid0.Coords, EltTy.bits .f32 = 32 ∨ (Rect.unit (s := S32x65536) (fun _ => 0) (fun a => (Pipeline.Clip.of (cc0_transform_1 i a) (S32x65536.size a) (S32x3300000.size a)).extent (S32x65536.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x65536.size a < S1x3300000.size a
  hwx0_2 : ∀ i : grid0.Coords, EltTy.bits .f32 = 32 ∨ (Rect.unit (s := S1x3300000) (fun a => cc0_transform_2 i a * S1x65536.size a) (fun a => (Pipeline.Clip.of (cc0_transform_2 i a) (S1x65536.size a) (S1x3300000.size a)).extent (S1x65536.size a)) fun a => Pipeline.Clip.inb (Pipeline.Clip.ok_of (hstart0_2 i a))).WholeWords (EltTy.packing .f32)
  hwxs0_2 : ∀ i : grid0.Coords, EltTy.bits .f32 = 32 ∨ (Rect.unit (s := S1x65536) (fun _ => 0) (fun a => (Pipeline.Clip.of (cc0_transform_2 i a) (S1x65536.size a) (S1x3300000.size a)).extent (S1x65536.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x65536.size a < S1x3300000.size a
  hwx0_3 : ∀ i : grid0.Coords, EltTy.bits .f32 = 32 ∨ (Rect.unit (s := S1x3300000) (fun a => cc0_transform_3 i a * S1x65536.size a) (fun a => (Pipeline.Clip.of (cc0_transform_3 i a) (S1x65536.size a) (S1x3300000.size a)).extent (S1x65536.size a)) fun a => Pipeline.Clip.inb (Pipeline.Clip.ok_of (hstart0_3 i a))).WholeWords (EltTy.packing .f32)
  hwxs0_3 : ∀ i : grid0.Coords, EltTy.bits .f32 = 32 ∨ (Rect.unit (s := S1x65536) (fun _ => 0) (fun a => (Pipeline.Clip.of (cc0_transform_3 i a) (S1x65536.size a) (S1x3300000.size a)).extent (S1x65536.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x65536.size a < S32x3300000.size a
  hwx0_4 : ∀ i : grid0.Coords, EltTy.bits .f32 = 32 ∨ (Rect.unit (s := S32x3300000) (fun a => cc0_transform_4 i a * S32x65536.size a) (fun a => (Pipeline.Clip.of (cc0_transform_4 i a) (S32x65536.size a) (S32x3300000.size a)).extent (S32x65536.size a)) fun a => Pipeline.Clip.inb (Pipeline.Clip.ok_of (hstart0_4 i a))).WholeWords (EltTy.packing .f32)
  hwxs0_4 : ∀ i : grid0.Coords, EltTy.bits .f32 = 32 ∨ (Rect.unit (s := S32x65536) (fun _ => 0) (fun a => (Pipeline.Clip.of (cc0_transform_4 i a) (S32x65536.size a) (S32x3300000.size a)).extent (S32x65536.size a)) fun a => (Nat.zero_add _).trans_le (Pipeline.Clip.extent_le (Pipeline.Clip.ok_of (hstart0_4 i a)))).WholeWords (EltTy.packing .f32)

variable [Facts₀]

def gather_S3200000_S3200000x1_S3200000_n_0_n_n_0_1_1 : GatherDims S3200000 S3200000x1 S3200000 where
  offsetDims := []
  collapsedSliceDims := [0]
  operandBatchingDims := []
  startIndicesBatchingDims := []
  startIndexMap := [0]
  indexVectorDim := 1
  sliceSizes := ![1]
  wf := gather_S3200000_S3200000x1_S3200000_n_0_n_n_0_1_1_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S32x100000_S3300000x1_S32x3300000_0_1_n_n_1_1_321 : GatherDims S32x100000 S3300000x1 S32x3300000 where
  offsetDims := [0]
  collapsedSliceDims := [1]
  operandBatchingDims := []
  startIndicesBatchingDims := []
  startIndexMap := [1]
  indexVectorDim := 1
  sliceSizes := ![32, 1]
  wf := gather_S32x100000_S3300000x1_S32x3300000_0_1_n_n_1_1_321_wf
def scatter_S32x100000_S3300000x1_S32x3300000_0_1_1_1 : ScatterDims S32x100000 S3300000x1 S32x3300000 where
  updateWindowDims := [0]
  insertedWindowDims := [1]
  scatterDimsToOperandDims := [1]
  indexVectorDim := 1
  wf := scatter_S32x100000_S3300000x1_S32x3300000_0_1_1_1_wf

abbrev win0_0 : Pipeline.Window sig grid0 :=
  Pipeline.Window.ofSpecClip (Memref.whole main_v55) S32x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v62) S32x65536.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v63) S1x65536.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v64) S1x65536.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v65) S32x65536.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x100000 : Shape := ⟨2, ![32, 100000]⟩
abbrev S3200000x1 : Shape := ⟨2, ![3200000, 1]⟩
abbrev S2x3300000 : Shape := ⟨2, ![2, 3300000]⟩
abbrev S3200000 : Shape := ⟨1, ![3200000]⟩
abbrev S_ : Shape := ⟨0, ![]⟩
abbrev S100000x1 : Shape := ⟨2, ![100000, 1]⟩
abbrev S3300000x1 : Shape := ⟨2, ![3300000, 1]⟩
abbrev S3300000 : Shape := ⟨1, ![3300000]⟩
abbrev S1x3300000 : Shape := ⟨2, ![1, 3300000]⟩
abbrev S100000 : Shape := ⟨1, ![100000]⟩
abbrev S32x3300000 : Shape := ⟨2, ![32, 3300000]⟩
abbrev S3300000x32 : Shape := ⟨2, ![3300000, 32]⟩
abbrev S100000x32 : Shape := ⟨2, ![100000, 32]⟩

abbrev nBuf : Space → Nat
  | .hbm => 94
  | .vmem => 0
  | .smem => 0
  | _ => 0

abbrev bufTy : (tb : Table) → Fin (tcTables nBuf tb) → BufTy
  | .hbm, ⟨0, _⟩ => ⟨S32x100000, .f32⟩
  | .hbm, ⟨1, _⟩ => ⟨S3200000x1, .f32⟩
  | .hbm, ⟨2, _⟩ => ⟨S2x3300000, .i32⟩
  | .hbm, ⟨3, _⟩ => ⟨S3200000, .i32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S3200000x1, .f32⟩
  | .hbm, ⟨13, _⟩ => ⟨S3200000x1, .f32⟩
  | .hbm, ⟨14, _⟩ => ⟨S_, .f32⟩
  | .hbm, ⟨15, _⟩ => ⟨S3200000x1, .f32⟩
  | .hbm, ⟨16, _⟩ => ⟨S3200000x1, .f32⟩
  | .hbm, ⟨17, _⟩ => ⟨S3200000x1, .f32⟩
  | .hbm, ⟨18, _⟩ => ⟨S3200000x1, .f32⟩
  | .hbm, ⟨19, _⟩ => ⟨S_, .f32⟩
  | .hbm, ⟨20, _⟩ => ⟨S3200000x1, .f32⟩
  | .hbm, ⟨21, _⟩ => ⟨S3200000x1, .f32⟩
  | .hbm, ⟨22, _⟩ => ⟨S_, .f32⟩
  | .hbm, ⟨23, _⟩ => ⟨S3200000x1, .f32⟩
  | .hbm, ⟨24, _⟩ => ⟨S3200000x1, .f32⟩
  | .hbm, ⟨25, _⟩ => ⟨S_, .f32⟩
  | .hbm, ⟨26, _⟩ => ⟨S100000x1, .f32⟩
  | .hbm, ⟨27, _⟩ => ⟨S3300000x1, .f32⟩
  | .hbm, ⟨28, _⟩ => ⟨S3300000, .f32⟩
  | .hbm, ⟨29, _⟩ => ⟨S1x3300000, .i32⟩
  | .hbm, ⟨30, _⟩ => ⟨S3300000, .i32⟩
  | .hbm, ⟨31, _⟩ => ⟨S1x3300000, .i32⟩
  | .hbm, ⟨32, _⟩ => ⟨S3300000, .i32⟩
  | .hbm, ⟨33, _⟩ => ⟨S_, .f32⟩
  | .hbm, ⟨34, _⟩ => ⟨S100000, .f32⟩
  | .hbm, ⟨35, _⟩ => ⟨S3300000x1, .i32⟩
  | .hbm, ⟨36, _⟩ => ⟨S100000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S32x3300000, .f32⟩
  | .hbm, ⟨64, _⟩ => ⟨S3300000, .f32⟩
  | .hbm, ⟨65, _⟩ => ⟨S3300000, .f32⟩
  | .hbm, ⟨66, _⟩ => ⟨S1x3300000, .f32⟩
  | .hbm, ⟨67, _⟩ => ⟨S32x3300000, .f32⟩
  | .hbm, ⟨68, _⟩ => ⟨S32x3300000, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S32x3300000, .f32⟩
  | .hbm, ⟨78, _⟩ => ⟨S1x3300000, .f32⟩
  | .hbm, ⟨79, _⟩ => ⟨S32x3300000, .f32⟩
  | .hbm, ⟨80, _⟩ => ⟨S32x3300000, .f32⟩
  | .hbm, ⟨81, _⟩ => ⟨S32x3300000, .f32⟩
  | .hbm, ⟨82, _⟩ => ⟨S1x3300000, .f32⟩
  | .hbm, ⟨83, _⟩ => ⟨S32x3300000, .f32⟩
  | .hbm, ⟨84, _⟩ => ⟨S32x3300000, .f32⟩
  | .hbm, ⟨85, _⟩ => ⟨S3300000x32, .f32⟩
  | .hbm, ⟨86, _⟩ => ⟨S_, .f32⟩
  | .hbm, ⟨87, _⟩ => ⟨S100000x32, .f32⟩
  | .hbm, ⟨88, _⟩ => ⟨S3300000x1, .i32⟩
  | .hbm, ⟨89, _⟩ => ⟨S100000x32, .f32⟩
  | .hbm, ⟨90, _⟩ => ⟨S32x100000, .f32⟩
  | .hbm, ⟨91, _⟩ => ⟨S_, .f32⟩
  | .hbm, ⟨92, _⟩ => ⟨S32x100000, .f32⟩
  | .hbm, ⟨93, _⟩ => ⟨S32x100000, .f32⟩
  | _, _ => ⟨S32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_c_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S_S100000x1 : S_.BroadcastsInDim S100000x1 (![] : Fin 0 → Fin S100000x1.rank)
  concatenates_S3200000x1_S100000x1_S3300000x1_d0 : Shape.Concatenates [S3200000x1, S100000x1] S3300000x1 0
  shapeCasts_S3300000x1_S3300000 : S3300000x1.ShapeCasts S3300000
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000_S1x3300000_1 : S3300000.BroadcastsInDim S1x3300000 (![1] : Fin 1 → Fin S1x3300000.rank)
  bcast_S1x3300000_S32x3300000_0_1 : S1x3300000.BroadcastsInDim S32x3300000 (![0, 1] : Fin 2 → Fin S32x3300000.rank)
  transposes_S32x3300000_S3300000x32_1_0 : S32x3300000.Transposes [1, 0] S3300000x32
  bcast_S_S100000x32 : S_.BroadcastsInDim S100000x32 (![] : Fin 0 → Fin S100000x32.rank)
  transposes_S100000x32_S32x100000_1_0 : S100000x32.Transposes [1, 0] S32x100000
  bcast_S_S32x100000 : S_.BroadcastsInDim S32x100000 (![] : Fin 0 → Fin S32x100000.rank)
  gather_S3200000x1_S3200000x1_S3200000x1_1_0_n_n_0_1_11_wf : GatherDims.WF S3200000x1 S3200000x1 S3200000x1 [1] [0] [] [0] [] 1 ![1, 1]
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S32x100000_S3300000x1_S32x3300000_0_1_n_n_1_1_321_wf : GatherDims.WF S32x100000 S3300000x1 S32x3300000 [0] [1] [] [1] [] 1 ![32, 1]
  scatter_S100000x32_S3300000x1_S3300000x32_1_0_0_1_wf : ScatterDims.WF S100000x32 S3300000x1 S3300000x32 [1] [0] [0] 1

variable [Facts₀]

def gather_S3200000x1_S3200000x1_S3200000x1_1_0_n_n_0_1_11 : GatherDims S3200000x1 S3200000x1 S3200000x1 where
  offsetDims := [1]
  collapsedSliceDims := [0]
  operandBatchingDims := []
  startIndicesBatchingDims := []
  startIndexMap := [0]
  indexVectorDim := 1
  sliceSizes := ![1, 1]
  wf := gather_S3200000x1_S3200000x1_S3200000x1_1_0_n_n_0_1_11_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S32x100000_S3300000x1_S32x3300000_0_1_n_n_1_1_321 : GatherDims S32x100000 S3300000x1 S32x3300000 where
  offsetDims := [0]
  collapsedSliceDims := [1]
  operandBatchingDims := []
  startIndicesBatchingDims := []
  startIndexMap := [1]
  indexVectorDim := 1
  sliceSizes := ![32, 1]
  wf := gather_S32x100000_S3300000x1_S32x3300000_0_1_n_n_1_1_321_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.MsgSpec.lean ====
/-
  The edge-message array as one function of the four arrays the region reads.

  For a feature row `f` and an edge `e` the message is
      a (f, e) * cs (0, e) - b (f, e) * cd (0, e):
  the gathered source features scaled by the edge's source coefficient, less the gathered
  destination features scaled by its destination coefficient. The two coefficient arrays have one
  row, shared by all 32 feature rows.
-/
import Idealize.ShloMosaic.PureOps

noncomputable section

namespace Cert.Spec

open Idealize.ShloMosaic

/-- The features-by-edges shape and the one-row shape of the coefficient arrays. -/
abbrev SFE : Shape := ⟨2, ![32, 3300000]⟩
abbrev S1E : Shape := ⟨2, ![1, 3300000]⟩

/-- The coefficient row's index under a feature-by-edge index: row `0`, the same edge. -/
def rowOf (i : SFE.Idx) : S1E.Idx := fun a =>
  match a with
  | ⟨0, _⟩ => ⟨0, Nat.one_pos⟩
  | ⟨1, _⟩ => ⟨(i 1).val, (i 1).isLt⟩

/-- The message array: `a * cs - b * cd`, the coefficient rows broadcast over the features. -/
def msgArr {F : FTy → Type} [FloatOps F] (a b : FVec F SFE .f32) (cs cd : FVec F S1E .f32) : FVec F SFE .f32 :=
  fun i => FloatOps.subf (FloatOps.mulf (a i) (cs (rowOf i))) (FloatOps.mulf (b i) (cd (rowOf i)))

end Cert.Spec

end
-- ==== Proof.BodyBits.lean ====
/-
  The one pipelined region of the program: its body obligation, its proof data and its frame run.

  The region computes, for 32 feature rows and 3300000 edges, the message array
      out (f, e) = ysrc (f, e) * coefs (0, e) - ydst (f, e) * coefd (0, e)
  in blocks of 65536 columns over a grid of 51 points; point `t` reads columns 65536 t … 65536 t + 65535 of
  the four input arrays and writes those columns of the result. 65536 does not divide 3300000: the block of the
  last point overhangs every array by 42336 columns, and its transfers are cut at the array's end. What the
  staging buffers hold past the cut is not determined by the arrays, so every statement about a buffer is a
  statement about its part inside the array; the body computes the overhanging columns too, from words nothing
  names, and the cut write-back drops them.

  Proved here: the body at any point on any staging buffers (`sound_kernel`), the payload element by element
  (`pay_apply`), the body obligation of the library's pipeline rule (`body_obligation`), the run of @main to the
  library's frame post (`run_main`) and the frame claim's post (`frame`).
-/
import proofs.«170964_j5660766896726_2_alg».proof.Proof.Gen.Kernel.Frame
import proofs.«170964_j5660766896726_2_alg».proof.Proof.Gen.Kernel.Launch
import proofs.«170964_j5660766896726_2_alg».proof.Proof.Gen.Kernel.Points
import proofs.«170964_j5660766896726_2_alg».proof.Proof.Gen.Kernel.Skeleton
import proofs.«170964_j5660766896726_2_alg».proof.Proof.MsgSpec
import Idealize.ShloMosaic.Lib.Pipeline.Kit
import Idealize.ShloMosaic.Lib.Pipeline.Value
import Idealize.ShloMosaic.Lib.Pipeline.FrameBody
import Idealize.ShloMosaic.Lib.Pipeline.FrameSuffix
import Idealize.ShloMosaic.Lib.Exec
import Idealize.ShloMosaic.Lib.Tactic
import Idealize.ShloMosaic.Lib.ValueLayout

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body on whole staging buffers

The body loads its four input staging buffers whole, computes the message block, and stores it whole into the
result's staging buffer: whatever the four buffers hold (`x0 … x3`), the result's ends at the payload of them,
and the four are left as they were. -/

/-- The two zero offsets of a whole-buffer access, as the constant function. -/
theorem hz : (![0, 0] : Fin 2 → Nat) = fun _ => 0 := funext fun a => by fin_cases a <;> rfl

set_option maxHeartbeats 1000000 in
theorem sound_kernel (c : Dev nD) (E : Set ℕ) (i : grid0.Coords)
    (arg1 : Memref sig .tc .vmem S32x65536 .f32) (harg1 : arg1.IsWhole) (arg2 : Memref sig .tc .vmem S32x65536 .f32) (harg2 : arg2.IsWhole)
    (arg3 : Memref sig .tc .vmem S1x65536 .f32) (harg3 : arg3.IsWhole) (arg4 : Memref sig .tc .vmem S1x65536 .f32) (harg4 : arg4.IsWhole)
    (arg5 : Memref sig .tc .vmem S32x65536 .f32) (harg5 : arg5.IsWhole)
    (x0 x1 : Vec F S32x65536 .f32) (x2 x3 : Vec F S1x65536 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x2 x1 x3)) -∗ K ⟨⟩))
      ⊢ wp frame (wpE (defs₀ (F := F)) Variants.none c none) E (cc0__msg_kernel i arg1 harg1 arg2 harg2 arg3 harg3 arg4 harg4 arg5 harg5) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz inb_S32x65536_S32x65536_0_0 y⟩),
    View.canon_unit_zero hz]
  have e0 := View.ld_unit_zero (S := S32x65536) hz inb_S32x65536_S32x65536_0_0 (View.read (Elt F) arg1.view f0)
  have e1 := View.ld_unit_zero (S := S32x65536) hz inb_S32x65536_S32x65536_0_0 (View.read (Elt F) arg2.view f1)
  have e2 := View.ld_unit_zero (S := S1x65536) hz inb_S1x65536_S1x65536_0_0 (View.read (Elt F) arg3.view f2)
  have e3 := View.ld_unit_zero (S := S1x65536) hz inb_S1x65536_S1x65536_0_0 (View.read (Elt F) arg4.view f3)
  simp only [View.readAt_eq_ld]
  rw [e0, e1, e2, e3]

/-! ## The payload, element by element -/

/-- The coefficient row's index under a block index: row `0`, the same column. -/
abbrev rowB (j : S32x65536.Idx) : S1x65536.Idx := ValueIdx.ix2 (0 : Fin 1) (j 1)

/-- A one-row block broadcast over the 32 feature rows reads, at `j`, the row at `j`'s column. -/
theorem bc_apply (v : FVec F S1x65536 .f32) (h : S1x65536.Broadcasts S32x65536) (j : S32x65536.Idx) :
    broadcastTo S32x65536 v h j = v (rowB j) := by
  conv_lhs => rw [ValueIdx.eq_ix2 j]
  exact ValueIdx.broadcastTo_1b_ab_apply v h (j 0) (j 1)

/-- The payload at a block index `j`: the source block's element times the source coefficient of `j`'s
    column, less the destination block's element times the destination coefficient of that column. -/
theorem pay_apply (v0 v6 : Vec F S32x65536 .f32) (v2 v8 : Vec F S1x65536 .f32) (j : S32x65536.Idx) :
    k0_pay1 v0 v2 v6 v8 j
      = FloatOps.subf (FloatOps.mulf (v0 j) (v2 (rowB j))) (FloatOps.mulf (v6 j) (v8 (rowB j))) := by
  unfold k0_pay1
  simp only [shapeCast_self]
  show FloatOps.subf (FloatOps.mulf (v0 j) (broadcastTo S32x65536 v2 _ j)) (FloatOps.mulf (v6 j) (broadcastTo S32x65536 v8 _ j)) = _
  rw [bc_apply, bc_apply]

/-! ## The proof data

Every window's block is 65536 columns wide and the arrays have 3300000 columns, which 65536 does not divide:
the block of the last point, 50, overhangs the arrays by 42336 columns and its transfers are cut at the
array's end (columns 3276800 … 3299999 only). What a staging buffer holds past the cut no contents stated in
advance can name; the body obligation states every buffer on its part inside the array only, and the proof
data fill the rest out with a word of the proof's choosing that nothing reads. -/

variable (m : (ℓ : Loc nD τ sig) → Buf (Elt F) ℓ) (ρ : Dev nD → PrngReg)

/-- The word the blocks are filled out with past the array's end. -/
abbrev zw : Elt F .f32 := Scalar.ofBits .f32 0#32

/-- The four input blocks at point `t`, as the fetch reads them off the arrays as the region finds them
    (`Gen.iblk`: the part inside the array), filled out past the array's end. -/
def blk8_0 (c : Dev nD) (t : Fin cfg0.N) : S32x65536.Idx → Elt F .f32 :=
  win0_0.fill (grid0.coords t) (fun _ => zw) (iblk m c 0 t)
def blk8_1 (c : Dev nD) (t : Fin cfg0.N) : S32x65536.Idx → Elt F .f32 :=
  win0_1.fill (grid0.coords t) (fun _ => zw) (iblk m c 1 t)
def blk8_2 (c : Dev nD) (t : Fin cfg0.N) : S1x65536.Idx → Elt F .f32 :=
  win0_2.fill (grid0.coords t) (fun _ => zw) (iblk m c 2 t)
def blk8_3 (c : Dev nD) (t : Fin cfg0.N) : S1x65536.Idx → Elt F .f32 :=
  win0_3.fill (grid0.coords t) (fun _ => zw) (iblk m c 3 t)
/-- The message block at point `t`: the payload of the four input blocks. -/
def oblk8 (c : Dev nD) (t : Fin cfg0.N) : S32x65536.Idx → Elt F .f32 :=
  k0_pay1 (blk8_0 m c t) (blk8_2 m c t) (blk8_1 m c t) (blk8_3 m c t)

/-- The proof data of the one pipeline on core `c`: the arrays as the region finds them; after the body at point
    `t` each input's buffer at its block and the result's at the message block; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => blk8_0 m c t
    | ⟨1, _⟩ => blk8_1 m c t
    | ⟨2, _⟩ => blk8_2 m c t
    | ⟨3, _⟩ => blk8_3 m c t
    | ⟨4, _⟩ => oblk8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk8_0 m c t := by dsimp only [dats]
theorem after_1 (c : Dev nD) (t : Fin cfg0.N) : (dats m 0 c).after 1 t = blk8_1 m c t := by dsimp only [dats]
theorem after_2 (c : Dev nD) (t : Fin cfg0.N) : (dats m 0 c).after 2 t = blk8_2 m c t := by dsimp only [dats]
theorem after_3 (c : Dev nD) (t : Fin cfg0.N) : (dats m 0 c).after 3 t = blk8_3 m c t := by dsimp only [dats]
theorem after_4 (c : Dev nD) (t : Fin cfg0.N) : (dats m 0 c).after 4 t = oblk8 m c t := by dsimp only [dats]

/-- What the body finds: every input is fetched at every point (its block index is the point), so its buffer
    holds the block on the columns inside the array and `d` elsewhere; -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]
theorem before_3 (c : Dev nD) (t : Fin cfg0.N) (d) :
    (dats m 0 c).before 3 t d = win0_3.fill (grid0.coords t) d (iblk m c 3 t) := by
  unfold Dat.before; rw [if_pos (fetch0_3 t)]
  unfold Dat.fetched Dat.blockOf iblk; rw [A_eq]
/-- the result's buffer, written back at every point, holds contents nothing names. -/
theorem before_4 (c : Dev nD) (t : Fin cfg0.N) (d) : (dats m 0 c).before 4 t d = d :=
  (dats m 0 c).before_out_reset 4 rfl t
    (by by_cases h0 : t.val = 0
        · exact .inl h0
        · exact .inr ⟨h0, flush0_4 _⟩) d

/-! ## The body obligation -/

/-- Where a transfer moves an element, a filled-out block holds the transferred part, whatever filled it out. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The five windows move with one index map and are cut alike on the column axis: a column the result's
    write-back moves is a column every input's fetch filled, in the feature blocks and in the coefficient rows.
    So on the part the write-back moves, the payload of the four buffers does not depend on what filled them out. -/
theorem cut_pay (t : Fin cfg0.N) (g0 g1 g2 g3) (d0 d0' d1 d1' : S32x65536.Idx → Elt F .f32)
    (d2 d2' d3 d3' : S1x65536.Idx → Elt F .f32) :
    win0_4.cut (grid0.coords t) (k0_pay1 (win0_0.fill (grid0.coords t) d0 g0) (win0_2.fill (grid0.coords t) d2 g2)
        (win0_1.fill (grid0.coords t) d1 g1) (win0_3.fill (grid0.coords t) d3 g3))
      = win0_4.cut (grid0.coords t) (k0_pay1 (win0_0.fill (grid0.coords t) d0' g0) (win0_2.fill (grid0.coords t) d2' g2)
        (win0_1.fill (grid0.coords t) d1' g1) (win0_3.fill (grid0.coords t) d3' g3)) := by
  funext j
  show k0_pay1 _ _ _ _ (win0_4.xinj (grid0.coords t) j) = k0_pay1 _ _ _ _ (win0_4.xinj (grid0.coords t) j)
  rw [pay_apply, pay_apply]
  have h0 : win0_0.moved (grid0.coords t) (win0_4.xinj (grid0.coords t) j) = true :=
    (win0_0.moved_iff _ _).mpr fun a => (j a).isLt
  have h1 : win0_1.moved (grid0.coords t) (win0_4.xinj (grid0.coords t) j) = true :=
    (win0_1.moved_iff _ _).mpr fun a => (j a).isLt
  have h2 : win0_2.moved (grid0.coords t) (rowB (win0_4.xinj (grid0.coords t) j)) = true :=
    (win0_2.moved_iff _ _).mpr fun (a : Fin 2) => match a with
      | ⟨0, _⟩ => Pipeline.Clip.extent_pos (win0_2.hclip _ _) Nat.one_pos
      | ⟨1, _⟩ => (j 1).isLt
  have h3 : win0_3.moved (grid0.coords t) (rowB (win0_4.xinj (grid0.coords t) j)) = true :=
    (win0_3.moved_iff _ _).mpr fun (a : Fin 2) => match a with
      | ⟨0, _⟩ => Pipeline.Clip.extent_pos (win0_3.hclip _ _) Nat.one_pos
      | ⟨1, _⟩ => (j 1).isLt
  rw [fill_indep win0_0 _ d0 d0' g0 _ h0, fill_indep win0_1 _ d1 d1' g1 _ h1, fill_indep win0_2 _ d2 d2' g2 _ h2,
    fill_indep win0_3 _ d3 d3' g3 _ h3]

/-- The library's body obligation, from `sound_kernel` at the point's staging buffers: the inputs' buffers arrive
    holding their blocks filled out with some `d` past the array's end, the result's holding anything; the inputs'
    leave as they came and the result's holds the payload of the four, which on the columns inside the array is
    the message block's — all that the obligation of a window whose transfers may be cut asks. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  rw [after_0, after_1, after_2, after_3, after_4]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0
    rw [show win0_0.cut (grid0.coords t) (blk8_0 m c t) = iblk m c 0 t from win0_0.cut_fill _ _ _]
    iexact H0
  isplitl [H1]
  · iexists d1
    rw [show win0_1.cut (grid0.coords t) (blk8_1 m c t) = iblk m c 1 t from win0_1.cut_fill _ _ _]
    iexact H1
  isplitl [H2]
  · iexists d2
    rw [show win0_2.cut (grid0.coords t) (blk8_2 m c t) = iblk m c 2 t from win0_2.cut_fill _ _ _]
    iexact H2
  isplitl [H3]
  · iexists d3
    rw [show win0_3.cut (grid0.coords t) (blk8_3 m c t) = iblk m c 3 t from win0_3.cut_fill _ _ _]
    iexact H3
  · iexists k0_pay1 (win0_0.fill (grid0.coords t) d0 (iblk m c 0 t)) (win0_2.fill (grid0.coords t) d2 (iblk m c 2 t))
      (win0_1.fill (grid0.coords t) d1 (iblk m c 1 t)) (win0_3.fill (grid0.coords t) d3 (iblk m c 3 t))
    have hfin := win0_4.fill_congr_cut (grid0.coords t) (cut_pay (F := F) t (iblk m c 0 t) (iblk m c 1 t) (iblk m c 2 t)
      (iblk m c 3 t) d0 (fun _ => zw) d1 (fun _ => zw) d2 (fun _ => zw) d3 (fun _ => zw))
    istop
    exact Entails.of_eq (congrArg (fun X => owns (c : Thread nD τ) (win0_4.stage (cfg0.slots t 4)) fullShare X) hfin.symm)

/-! ## The run and the frame -/

set_option backward.isDefEq.respectTransparency.types false in
/-- At the compiled mesh, for any values, from any memory with zero counters: every weakly fair execution of @main on
    the TensorCores terminates, and every final state has every array of the pipeline at what the library computes
    from the proof data and every other unscoped buffer at what the host lines after the region compute from the
    region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand
end
-- ==== Proof.BodyIdeal.lean ====
/-
  The one pipelined region of the program: its body obligation, its proof data and its frame run.

  The region computes, for 32 feature rows and 3300000 edges, the message array
      out (f, e) = ysrc (f, e) * coefs (0, e) - ydst (f, e) * coefd (0, e)
  in blocks of 65536 columns over a grid of 51 points; point `t` reads columns 65536 t … 65536 t + 65535 of
  the four input arrays and writes those columns of the result. 65536 does not divide 3300000: the block of the
  last point overhangs every array by 42336 columns, and its transfers are cut at the array's end. What the
  staging buffers hold past the cut is not determined by the arrays, so every statement about a buffer is a
  statement about its part inside the array; the body computes the overhanging columns too, from words nothing
  names, and the cut write-back drops them.

  Proved here: the body at any point on any staging buffers (`sound_kernel`), the payload element by element
  (`pay_apply`), the body obligation of the library's pipeline rule (`body_obligation`), the run of @main to the
  library's frame post (`run_main`), the frame claim's post (`frame`), and the result array after the last
  write-back as one function of the four input arrays (`out_final`).
-/
import proofs.«170964_j5660766896726_2_alg».proof.Proof.Gen.KernelIdeal.Frame
import proofs.«170964_j5660766896726_2_alg».proof.Proof.Gen.KernelIdeal.Launch
import proofs.«170964_j5660766896726_2_alg».proof.Proof.Gen.KernelIdeal.Points
import proofs.«170964_j5660766896726_2_alg».proof.Proof.Gen.KernelIdeal.Skeleton
import proofs.«170964_j5660766896726_2_alg».proof.Proof.MsgSpec
import Idealize.ShloMosaic.Lib.Pipeline.Kit
import Idealize.ShloMosaic.Lib.Pipeline.Value
import Idealize.ShloMosaic.Lib.Pipeline.FrameBody
import Idealize.ShloMosaic.Lib.Pipeline.FrameSuffix
import Idealize.ShloMosaic.Lib.Exec
import Idealize.ShloMosaic.Lib.Tactic
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body on whole staging buffers

The body loads its four input staging buffers whole, computes the message block, and stores it whole into the
result's staging buffer: whatever the four buffers hold (`x0 … x3`), the result's ends at the payload of them,
and the four are left as they were. -/

/-- The two zero offsets of a whole-buffer access, as the constant function. -/
theorem hz : (![0, 0] : Fin 2 → Nat) = fun _ => 0 := funext fun a => by fin_cases a <;> rfl

set_option maxHeartbeats 1000000 in
theorem sound_kernel (c : Dev nD) (E : Set ℕ) (i : grid0.Coords)
    (arg1 : Memref sig .tc .vmem S32x65536 .f32) (harg1 : arg1.IsWhole) (arg2 : Memref sig .tc .vmem S32x65536 .f32) (harg2 : arg2.IsWhole)
    (arg3 : Memref sig .tc .vmem S1x65536 .f32) (harg3 : arg3.IsWhole) (arg4 : Memref sig .tc .vmem S1x65536 .f32) (harg4 : arg4.IsWhole)
    (arg5 : Memref sig .tc .vmem S32x65536 .f32) (harg5 : arg5.IsWhole)
    (x0 x1 : Vec F S32x65536 .f32) (x2 x3 : Vec F S1x65536 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x2 x1 x3)) -∗ K ⟨⟩))
      ⊢ wp frame (wpE (defs₀ (F := F)) Variants.none c none) E (cc0__msg_kernel i arg1 harg1 arg2 harg2 arg3 harg3 arg4 harg4 arg5 harg5) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz inb_S32x65536_S32x65536_0_0 y⟩),
    View.canon_unit_zero hz]
  have e0 := View.ld_unit_zero (S := S32x65536) hz inb_S32x65536_S32x65536_0_0 (View.read (Elt F) arg1.view f0)
  have e1 := View.ld_unit_zero (S := S32x65536) hz inb_S32x65536_S32x65536_0_0 (View.read (Elt F) arg2.view f1)
  have e2 := View.ld_unit_zero (S := S1x65536) hz inb_S1x65536_S1x65536_0_0 (View.read (Elt F) arg3.view f2)
  have e3 := View.ld_unit_zero (S := S1x65536) hz inb_S1x65536_S1x65536_0_0 (View.read (Elt F) arg4.view f3)
  simp only [View.readAt_eq_ld]
  rw [e0, e1, e2, e3]

/-! ## The payload, element by element -/

/-- The coefficient row's index under a block index: row `0`, the same column. -/
abbrev rowB (j : S32x65536.Idx) : S1x65536.Idx := ValueIdx.ix2 (0 : Fin 1) (j 1)

/-- A one-row block broadcast over the 32 feature rows reads, at `j`, the row at `j`'s column. -/
theorem bc_apply (v : FVec F S1x65536 .f32) (h : S1x65536.Broadcasts S32x65536) (j : S32x65536.Idx) :
    broadcastTo S32x65536 v h j = v (rowB j) := by
  conv_lhs => rw [ValueIdx.eq_ix2 j]
  exact ValueIdx.broadcastTo_1b_ab_apply v h (j 0) (j 1)

/-- The payload at a block index `j`: the source block's element times the source coefficient of `j`'s
    column, less the destination block's element times the destination coefficient of that column. -/
theorem pay_apply (v0 v6 : Vec F S32x65536 .f32) (v2 v8 : Vec F S1x65536 .f32) (j : S32x65536.Idx) :
    k0_pay1 v0 v2 v6 v8 j
      = FloatOps.subf (FloatOps.mulf (v0 j) (v2 (rowB j))) (FloatOps.mulf (v6 j) (v8 (rowB j))) := by
  unfold k0_pay1
  simp only [shapeCast_self]
  show FloatOps.subf (FloatOps.mulf (v0 j) (broadcastTo S32x65536 v2 _ j)) (FloatOps.mulf (v6 j) (broadcastTo S32x65536 v8 _ j)) = _
  rw [bc_apply, bc_apply]

/-! ## The proof data

Every window's block is 65536 columns wide and the arrays have 3300000 columns, which 65536 does not divide:
the block of the last point, 50, overhangs the arrays by 42336 columns and its transfers are cut at the
array's end (columns 3276800 … 3299999 only). What a staging buffer holds past the cut no contents stated in
advance can name; the body obligation states every buffer on its part inside the array only, and the proof
data fill the rest out with a word of the proof's choosing that nothing reads. -/

variable (m : (ℓ : Loc nD τ sig) → Buf (Elt F) ℓ) (ρ : Dev nD → PrngReg)

/-- The word the blocks are filled out with past the array's end. -/
abbrev zw : Elt F .f32 := Scalar.ofBits .f32 0#32

/-- The four input blocks at point `t`, as the fetch reads them off the arrays as the region finds them
    (`Gen.iblk`: the part inside the array), filled out past the array's end. -/
def blk8_0 (c : Dev nD) (t : Fin cfg0.N) : S32x65536.Idx → Elt F .f32 :=
  win0_0.fill (grid0.coords t) (fun _ => zw) (iblk m c 0 t)
def blk8_1 (c : Dev nD) (t : Fin cfg0.N) : S32x65536.Idx → Elt F .f32 :=
  win0_1.fill (grid0.coords t) (fun _ => zw) (iblk m c 1 t)
def blk8_2 (c : Dev nD) (t : Fin cfg0.N) : S1x65536.Idx → Elt F .f32 :=
  win0_2.fill (grid0.coords t) (fun _ => zw) (iblk m c 2 t)
def blk8_3 (c : Dev nD) (t : Fin cfg0.N) : S1x65536.Idx → Elt F .f32 :=
  win0_3.fill (grid0.coords t) (fun _ => zw) (iblk m c 3 t)
/-- The message block at point `t`: the payload of the four input blocks. -/
def oblk8 (c : Dev nD) (t : Fin cfg0.N) : S32x65536.Idx → Elt F .f32 :=
  k0_pay1 (blk8_0 m c t) (blk8_2 m c t) (blk8_1 m c t) (blk8_3 m c t)

/-- The proof data of the one pipeline on core `c`: the arrays as the region finds them; after the body at point
    `t` each input's buffer at its block and the result's at the message block; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => blk8_0 m c t
    | ⟨1, _⟩ => blk8_1 m c t
    | ⟨2, _⟩ => blk8_2 m c t
    | ⟨3, _⟩ => blk8_3 m c t
    | ⟨4, _⟩ => oblk8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk8_0 m c t := by dsimp only [dats]
theorem after_1 (c : Dev nD) (t : Fin cfg0.N) : (dats m 0 c).after 1 t = blk8_1 m c t := by dsimp only [dats]
theorem after_2 (c : Dev nD) (t : Fin cfg0.N) : (dats m 0 c).after 2 t = blk8_2 m c t := by dsimp only [dats]
theorem after_3 (c : Dev nD) (t : Fin cfg0.N) : (dats m 0 c).after 3 t = blk8_3 m c t := by dsimp only [dats]
theorem after_4 (c : Dev nD) (t : Fin cfg0.N) : (dats m 0 c).after 4 t = oblk8 m c t := by dsimp only [dats]

/-- What the body finds: every input is fetched at every point (its block index is the point), so its buffer
    holds the block on the columns inside the array and `d` elsewhere; -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]
theorem before_3 (c : Dev nD) (t : Fin cfg0.N) (d) :
    (dats m 0 c).before 3 t d = win0_3.fill (grid0.coords t) d (iblk m c 3 t) := by
  unfold Dat.before; rw [if_pos (fetch0_3 t)]
  unfold Dat.fetched Dat.blockOf iblk; rw [A_eq]
/-- the result's buffer, written back at every point, holds contents nothing names. -/
theorem before_4 (c : Dev nD) (t : Fin cfg0.N) (d) : (dats m 0 c).before 4 t d = d :=
  (dats m 0 c).before_out_reset 4 rfl t
    (by by_cases h0 : t.val = 0
        · exact .inl h0
        · exact .inr ⟨h0, flush0_4 _⟩) d

/-! ## The body obligation -/

/-- Where a transfer moves an element, a filled-out block holds the transferred part, whatever filled it out. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The five windows move with one index map and are cut alike on the column axis: a column the result's
    write-back moves is a column every input's fetch filled, in the feature blocks and in the coefficient rows.
    So on the part the write-back moves, the payload of the four buffers does not depend on what filled them out. -/
theorem cut_pay (t : Fin cfg0.N) (g0 g1 g2 g3) (d0 d0' d1 d1' : S32x65536.Idx → Elt F .f32)
    (d2 d2' d3 d3' : S1x65536.Idx → Elt F .f32) :
    win0_4.cut (grid0.coords t) (k0_pay1 (win0_0.fill (grid0.coords t) d0 g0) (win0_2.fill (grid0.coords t) d2 g2)
        (win0_1.fill (grid0.coords t) d1 g1) (win0_3.fill (grid0.coords t) d3 g3))
      = win0_4.cut (grid0.coords t) (k0_pay1 (win0_0.fill (grid0.coords t) d0' g0) (win0_2.fill (grid0.coords t) d2' g2)
        (win0_1.fill (grid0.coords t) d1' g1) (win0_3.fill (grid0.coords t) d3' g3)) := by
  funext j
  show k0_pay1 _ _ _ _ (win0_4.xinj (grid0.coords t) j) = k0_pay1 _ _ _ _ (win0_4.xinj (grid0.coords t) j)
  rw [pay_apply, pay_apply]
  have h0 : win0_0.moved (grid0.coords t) (win0_4.xinj (grid0.coords t) j) = true :=
    (win0_0.moved_iff _ _).mpr fun a => (j a).isLt
  have h1 : win0_1.moved (grid0.coords t) (win0_4.xinj (grid0.coords t) j) = true :=
    (win0_1.moved_iff _ _).mpr fun a => (j a).isLt
  have h2 : win0_2.moved (grid0.coords t) (rowB (win0_4.xinj (grid0.coords t) j)) = true :=
    (win0_2.moved_iff _ _).mpr fun (a : Fin 2) => match a with
      | ⟨0, _⟩ => Pipeline.Clip.extent_pos (win0_2.hclip _ _) Nat.one_pos
      | ⟨1, _⟩ => (j 1).isLt
  have h3 : win0_3.moved (grid0.coords t) (rowB (win0_4.xinj (grid0.coords t) j)) = true :=
    (win0_3.moved_iff _ _).mpr fun (a : Fin 2) => match a with
      | ⟨0, _⟩ => Pipeline.Clip.extent_pos (win0_3.hclip _ _) Nat.one_pos
      | ⟨1, _⟩ => (j 1).isLt
  rw [fill_indep win0_0 _ d0 d0' g0 _ h0, fill_indep win0_1 _ d1 d1' g1 _ h1, fill_indep win0_2 _ d2 d2' g2 _ h2,
    fill_indep win0_3 _ d3 d3' g3 _ h3]

/-- The library's body obligation, from `sound_kernel` at the point's staging buffers: the inputs' buffers arrive
    holding their blocks filled out with some `d` past the array's end, the result's holding anything; the inputs'
    leave as they came and the result's holds the payload of the four, which on the columns inside the array is
    the message block's — all that the obligation of a window whose transfers may be cut asks. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  rw [after_0, after_1, after_2, after_3, after_4]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0
    rw [show win0_0.cut (grid0.coords t) (blk8_0 m c t) = iblk m c 0 t from win0_0.cut_fill _ _ _]
    iexact H0
  isplitl [H1]
  · iexists d1
    rw [show win0_1.cut (grid0.coords t) (blk8_1 m c t) = iblk m c 1 t from win0_1.cut_fill _ _ _]
    iexact H1
  isplitl [H2]
  · iexists d2
    rw [show win0_2.cut (grid0.coords t) (blk8_2 m c t) = iblk m c 2 t from win0_2.cut_fill _ _ _]
    iexact H2
  isplitl [H3]
  · iexists d3
    rw [show win0_3.cut (grid0.coords t) (blk8_3 m c t) = iblk m c 3 t from win0_3.cut_fill _ _ _]
    iexact H3
  · iexists k0_pay1 (win0_0.fill (grid0.coords t) d0 (iblk m c 0 t)) (win0_2.fill (grid0.coords t) d2 (iblk m c 2 t))
      (win0_1.fill (grid0.coords t) d1 (iblk m c 1 t)) (win0_3.fill (grid0.coords t) d3 (iblk m c 3 t))
    have hfin := win0_4.fill_congr_cut (grid0.coords t) (cut_pay (F := F) t (iblk m c 0 t) (iblk m c 1 t) (iblk m c 2 t)
      (iblk m c 3 t) d0 (fun _ => zw) d1 (fun _ => zw) d2 (fun _ => zw) d3 (fun _ => zw))
    istop
    exact Entails.of_eq (congrArg (fun X => owns (c : Thread nD τ) (win0_4.stage (cfg0.slots t 4)) fullShare X) hfin.symm)

/-! ## The run and the frame -/

set_option backward.isDefEq.respectTransparency.types false in
/-- At the compiled mesh, for any values, from any memory with zero counters: every weakly fair execution of @main on
    the TensorCores terminates, and every final state has every array of the pipeline at what the library computes
    from the proof data and every other unscoped buffer at what the host lines after the region compute from the
    region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array after the run

Point `t` writes back columns 65536 t … of the result, as many as lie inside the array: 65536 of them for
t < 50 and the last 23200 (3276800 … 3299999) for t = 50. Column e of the array is therefore written by point
e / 65536; what is written there is the message of the four input arrays at that feature row and column,
because every window's block at point `t` starts at the same column 65536 t. -/

/-- Where a transfer moves an element, a filled-out block holds the transferred part's element there. -/
theorem fill_apply {G : Pipeline.Grid} (w : Window sig G) {α : Type} (i : G.Coords) (d : w.block.Idx → α)
    (g : (w.xblock i).Idx → α) (J : w.block.Idx) (h : ∀ a, (J a).val < w.xsize i a) :
    w.fill i d g J = g fun a => ⟨(J a).val, h a⟩ := by
  unfold Window.fill; rw [dif_pos ((w.moved_iff i J).mpr h)]

/-- The schedule, decided over the grid: the result's block index at point `t` is (0, t); its write-back moves
    all 32 rows, and 65536 columns before the last point, 23200 at it. -/
theorem idx_facts : ∀ t : Fin cfg0.N, win0_4.index t (0 : Fin 2) = 0 ∧ win0_4.index t (1 : Fin 2) = t.val
    ∧ win0_4.xsize (grid0.coords t) (0 : Fin 2) = 32
    ∧ (t.val < 50 → win0_4.xsize (grid0.coords t) (1 : Fin 2) = 65536)
    ∧ (t.val = 50 → win0_4.xsize (grid0.coords t) (1 : Fin 2) = 23200) :=
  (by decide +kernel : ∀ t : Fin grid0.N, _)

/-- For ANY four arrays of the operands' shapes: the payload of their blocks at point `t` (filled out past the
    array's end with anything), on the part the result's write-back moves, is block `t` of their message array.
    An element `j` of that part sits at array index (j 0, 65536 t + j 1) in the result and in both feature arrays,
    and its coefficients at (0, 65536 t + j 1) in the two coefficient rows. -/
theorem pay_blocks (A0 A1 : S32x3300000.Idx → Elt F .f32) (A2 A3 : S1x3300000.Idx → Elt F .f32) (t : Fin cfg0.N)
    (d0 d1 : S32x65536.Idx → Elt F .f32) (d2 d3 : S1x65536.Idx → Elt F .f32) :
    win0_4.cut (grid0.coords t)
        (k0_pay1 (win0_0.fill (grid0.coords t) d0 ((win0_0.blk t).view.read (Elt F) A0))
          (win0_2.fill (grid0.coords t) d2 ((win0_2.blk t).view.read (Elt F) A2))
          (win0_1.fill (grid0.coords t) d1 ((win0_1.blk t).view.read (Elt F) A1))
          (win0_3.fill (grid0.coords t) d3 ((win0_3.blk t).view.read (Elt F) A3)))
      = (win0_4.blk t).view.read (Elt F) (Cert.Spec.msgArr A0 A1 A2 A3) := by
  funext j
  show k0_pay1 _ _ _ _ (win0_4.xinj (grid0.coords t) j) = Cert.Spec.msgArr A0 A1 A2 A3 ((win0_4.blk t).view.emb j)
  unfold Cert.Spec.msgArr
  rw [pay_apply]
  have h2 : ∀ a : Fin 2, ((rowB (win0_4.xinj (grid0.coords t) j)) a).val < win0_2.xsize (grid0.coords t) a :=
    fun (a : Fin 2) => match a with
      | ⟨0, _⟩ => Pipeline.Clip.extent_pos (win0_2.hclip _ _) Nat.one_pos
      | ⟨1, _⟩ => (j 1).isLt
  have h3 : ∀ a : Fin 2, ((rowB (win0_4.xinj (grid0.coords t) j)) a).val < win0_3.xsize (grid0.coords t) a :=
    fun (a : Fin 2) => match a with
      | ⟨0, _⟩ => Pipeline.Clip.extent_pos (win0_3.hclip _ _) Nat.one_pos
      | ⟨1, _⟩ => (j 1).isLt
  rw [fill_apply win0_0 _ _ _ (win0_4.xinj (grid0.coords t) j) (fun a => (j a).isLt),
    fill_apply win0_1 _ _ _ (win0_4.xinj (grid0.coords t) j) (fun a => (j a).isLt),
    fill_apply win0_2 _ _ _ _ h2, fill_apply win0_3 _ _ _ _ h3]
  have e0 : ∀ h : (∀ a, (win0_4.xinj (grid0.coords t) j a).val < win0_0.xsize (grid0.coords t) a),
      (win0_0.blk t).view.read (Elt F) A0 (fun a => ⟨(win0_4.xinj (grid0.coords t) j a).val, h a⟩)
        = A0 ((win0_4.blk t).view.emb j) := fun h => by
    show A0 ((win0_0.blk t).view.emb _) = _
    refine congrArg A0 (funext fun (a : Fin 2) => Fin.ext ?_)
    match a with
    | ⟨0, _⟩ => rfl
    | ⟨1, _⟩ => rfl
  have e1 : ∀ h : (∀ a, (win0_4.xinj (grid0.coords t) j a).val < win0_1.xsize (grid0.coords t) a),
      (win0_1.blk t).view.read (Elt F) A1 (fun a => ⟨(win0_4.xinj (grid0.coords t) j a).val, h a⟩)
        = A1 ((win0_4.blk t).view.emb j) := fun h => by
    show A1 ((win0_1.blk t).view.emb _) = _
    refine congrArg A1 (funext fun (a : Fin 2) => Fin.ext ?_)
    match a with
    | ⟨0, _⟩ => rfl
    | ⟨1, _⟩ => rfl
  have e2 : ∀ h : (∀ a, (rowB (win0_4.xinj (grid0.coords t) j) a).val < win0_2.xsize (grid0.coords t) a),
      (win0_2.blk t).view.read (Elt F) A2 (fun a => ⟨(rowB (win0_4.xinj (grid0.coords t) j) a).val, h a⟩)
        = A2 (Cert.Spec.rowOf ((win0_4.blk t).view.emb j)) := fun h => by
    show A2 ((win0_2.blk t).view.emb _) = _
    refine congrArg A2 (funext fun (a : Fin 2) => Fin.ext ?_)
    match a with
    | ⟨0, _⟩ => rfl
    | ⟨1, _⟩ => rfl
  have e3 : ∀ h : (∀ a, (rowB (win0_4.xinj (grid0.coords t) j) a).val < win0_3.xsize (grid0.coords t) a),
      (win0_3.blk t).view.read (Elt F) A3 (fun a => ⟨(rowB (win0_4.xinj (grid0.coords t) j) a).val, h a⟩)
        = A3 (Cert.Spec.rowOf ((win0_4.blk t).view.emb j)) := fun h => by
    show A3 ((win0_3.blk t).view.emb _) = _
    refine congrArg A3 (funext fun (a : Fin 2) => Fin.ext ?_)
    match a with
    | ⟨0, _⟩ => rfl
    | ⟨1, _⟩ => rfl
  exact congr (congrArg FloatOps.subf (congr (congrArg FloatOps.mulf (e0 _)) (e2 _)))
    (congr (congrArg FloatOps.mulf (e1 _)) (e3 _))

/-- The message array of the four input arrays as the region finds them. -/
abbrev msgOf (c : Dev nD) : Buf (Elt F) ((cfg0.win 4).arr.view.loc (c.tc : Thread nD τ)) :=
  Cert.Spec.msgArr (V m c (Pipeline.arrRef spec0 0)) (V m c (Pipeline.arrRef spec0 1))
    (V m c (Pipeline.arrRef spec0 2)) (V m c (Pipeline.arrRef spec0 3))

/-- What point `t` writes back is block `t`, cut at the array's end, of the message array. -/
theorem flushed_eq (c : Dev nD) (t : Fin cfg0.N) :
    (dats m 0 c).flushed 4 t = ((cfg0.win 4).blk t).view.read (Elt F) (msgOf m c) := by
  show (cfg0.win 4).cut (grid0.coords t) ((dats m 0 c).after 4 t) = _
  rw [after_4]
  unfold oblk8 blk8_0 blk8_1 blk8_2 blk8_3 iblk msgOf
  generalize V m c (Pipeline.arrRef spec0 0) = A0
  generalize V m c (Pipeline.arrRef spec0 1) = A1
  generalize V m c (Pipeline.arrRef spec0 2) = A2
  generalize V m c (Pipeline.arrRef spec0 3) = A3
  exact pay_blocks A0 A1 A2 A3 t _ _ _ _

/-- An index of the array is in point `t`'s block iff each coordinate is in the block's range on its axis, the
    range cut at the array's end. -/
theorem mem_blk (t : Fin cfg0.N) (i : S32x3300000.Idx) :
    i ∈ ((cfg0.win 4).blk t).view.set ↔ ∀ a : Fin 2, win0_4.index t a * S32x65536.size a ≤ (i a).val
      ∧ (i a).val < win0_4.index t a * S32x65536.size a + win0_4.xsize (grid0.coords t) a := by
  show i ∈ ((View.whole main_v65).slice (win0_4.rect t)).set ↔ _
  rw [View.set_slice_whole, Rect.mem_set_unit]
  exact Iff.rfl

/-- Every index of the result array is in the block of the point its column falls to: column `e` in that of
    point `e / 65536` (the last point's block, cut, still reaches the array's last column). -/
theorem covered (i : S32x3300000.Idx) :
    ∃ t : Fin cfg0.N, (cfg0.win 4).flush t = true ∧ i ∈ ((cfg0.win 4).blk t).view.set := by
  have hi0 : (i 0).val < 32 := (i 0).isLt
  have hi1 : (i 1).val < 3300000 := (i 1).isLt
  have ht : (i 1).val / 65536 < cfg0.N := by rw [show cfg0.N = 51 from N_0]; omega
  refine ⟨⟨(i 1).val / 65536, ht⟩, flush0_4 _, ?_⟩
  rw [mem_blk]
  obtain ⟨f0, f1, f2, f3, f4⟩ := idx_facts ⟨(i 1).val / 65536, ht⟩
  have f1' : win0_4.index ⟨(i 1).val / 65536, ht⟩ (1 : Fin 2) = (i 1).val / 65536 := f1
  intro a
  match a with
  | ⟨0, _⟩ =>
    show win0_4.index ⟨(i 1).val / 65536, ht⟩ (0 : Fin 2) * 32 ≤ (i 0).val
      ∧ (i 0).val < win0_4.index ⟨(i 1).val / 65536, ht⟩ (0 : Fin 2) * 32 + win0_4.xsize (grid0.coords ⟨(i 1).val / 65536, ht⟩) (0 : Fin 2)
    rw [f0, f2]; omega
  | ⟨1, _⟩ =>
    show win0_4.index ⟨(i 1).val / 65536, ht⟩ (1 : Fin 2) * 65536 ≤ (i 1).val
      ∧ (i 1).val < win0_4.index ⟨(i 1).val / 65536, ht⟩ (1 : Fin 2) * 65536 + win0_4.xsize (grid0.coords ⟨(i 1).val / 65536, ht⟩) (1 : Fin 2)
    rw [f1']
    by_cases h50 : (i 1).val / 65536 < 50
    · rw [f3 h50]; omega
    · have e50 : (i 1).val / 65536 = 50 := by omega
      rw [f4 e50]; omega

/-- The result array after the last write-back, with the four input arrays named by their windows. -/
theorem out_final' (c : Dev nD) : (dats m 0 c).arrAt 4 cfg0.N = msgOf m c :=
  (dats m 0 c).arrAt_eq_of_cover 4 (msgOf m c) (fun t _ => flushed_eq m c t) (fun i => covered i)

/-- THE RESULT ARRAY after the last write-back is the message array of the four input arrays as the region finds
    them: every point writes its block of it, and the blocks cover the array. (The windows' arrays are, in
    order, the gathered source features, the gathered destination features, the source coefficient row and the
    destination coefficient row.) -/
theorem out_final (c : Dev nD) :
    (dats m 0 c).arrAt 4 cfg0.N
      = Cert.Spec.msgArr (V m c main_v55) (V m c main_v62) (V m c main_v63) (V m c main_v64) :=
  out_final' m c

end Cert.KernelIdeal.Hand
end
-- ==== Proof.KernelTerms.lean ====
/-
  The values the kernel's program computes on the host around its one region, each named as a
  function of the four argument arrays: node features `y` (32 × 100000), per-edge distance logits
  `dw` (3200000 × 1), the edge list `ei` (2 × 3300000: row 0 the sources, row 1 the destinations) and
  the reverse-edge permutation `pm` (3200000).

  In the order the program computes them: the two rows of the edge list; an index row with its
  negative entries shifted up by the extent of the axis it indexes; the edge weights (the logistic
  function of the mean of a logit and its reverse edge's, then ones for the trailing self-loops); the
  weighted in-degree of every node; the degrees at each edge's source and destination; the two
  per-edge coefficients `w / sqrt (deg_dst * deg_src)` and `w / deg_dst`; the node features gathered
  at each edge's source and destination; and, after the region, the messages summed onto their
  destination nodes.
-/
import proofs.«170964_j5660766896726_2_alg».proof.KernelIdeal
import proofs.«170964_j5660766896726_2_alg».proof.Proof.Gen.KernelIdeal

noncomputable section

namespace Cert.KernelIdeal.Terms

open Cert.KernelIdeal Cert.KernelIdeal.Facts₀ Cert.KernelIdeal.Facts Idealize.ShloMosaic

variable {F : FTy → Type} [FloatOps F]

/-- Row 0 of the edge list: the source node of every edge. -/
def srcK (ei : IVec S2x3300000 32) : IVec S3300000 32 :=
  shapeCast S3300000 (extractStridedSlice S1x3300000 ![0, 0] ei slices_S2x3300000_S1x3300000_0_0) shapeCasts_S1x3300000_S3300000

/-- Row 1 of the edge list: the destination node of every edge. -/
def dstK (ei : IVec S2x3300000 32) : IVec S3300000 32 :=
  shapeCast S3300000 (extractStridedSlice S1x3300000 ![1, 0] ei slices_S2x3300000_S1x3300000_1_0) shapeCasts_S1x3300000_S3300000

/-- Node indices with the negative ones shifted up by the number of nodes. -/
def wrapN (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- Edge indices with the negative ones shifted up by the number of non-loop edges. -/
def wrapE (pm : IVec S3200000 32) : IVec S3200000 32 :=
  select (cmpi .slt pm (broadcastInDim S3200000 ![] bcast_S_S3200000 (constantI S_ 32 0#32)))
    (addi pm (broadcastInDim S3200000 ![] bcast_S_S3200000 (constantI S_ 32 3200000#32))) pm

/-- A row of node indices as the one-column index array a gather or scatter reads. -/
def colN (v : IVec S3300000 32) : IVec S3300000x1 32 :=
  broadcastInDim S3300000x1 ![0] bcast_S3300000_S3300000x1_0 v

/-- The distance logits as a flat row. -/
def dwFlat (dw : FVec F S3200000x1 .f32) : FVec F S3200000 .f32 :=
  shapeCast S3200000 dw shapeCasts_S3200000x1_S3200000

/-- The symmetrized weight of every non-loop edge: the logistic function of half the sum of its logit and
    its reverse edge's. -/
def dsymK (dw : FVec F S3200000x1 .f32) (pm : IVec S3200000 32) : FVec F S3200000 .f32 :=
  Host.divf (broadcastInDim S3200000 ![] bcast_S_S3200000 (constant S_ .f32 0x3F800000#32))
    (addf (broadcastInDim S3200000 ![] bcast_S_S3200000 (constant S_ .f32 0x3F800000#32))
      (Host.exp (Host.negf (mulf
        (addf (Host.gather gather_S3200000_S3200000x1_S3200000_n_0_n_n_0_1_1 (dwFlat dw)
                (broadcastInDim S3200000x1 ![0] bcast_S3200000_S3200000x1_0 (wrapE pm))) (dwFlat dw))
        (broadcastInDim S3200000 ![] bcast_S_S3200000 (constant S_ .f32 0x3F000000#32))))))

/-- The weight of every edge: the symmetrized weights, then one for each trailing self-loop. -/
def dfullK (dw : FVec F S3200000x1 .f32) (pm : IVec S3200000 32) : FVec F S3300000 .f32 :=
  concatenate S3300000 0 [⟨S3200000, dsymK dw pm⟩,
    ⟨S100000, broadcastInDim S100000 ![] bcast_S_S100000 (constant S_ .f32 0x3F800000#32)⟩] concatenates_S3200000_S100000_S3300000_d0

/-- The weighted in-degree of every node: the edge weights summed onto their destinations. -/
def degK (dw : FVec F S3200000x1 .f32) (ei : IVec S2x3300000 32) (pm : IVec S3200000 32) : FVec F S100000 .f32 :=
  Host.scatterAdd scatter_S100000_S3300000x1_S3300000_n_0_0_1
    (broadcastInDim S100000 ![] bcast_S_S100000 (constant S_ .f32 0x00000000#32)) (colN (wrapN (dstK ei))) (dfullK dw pm)

/-- The degree at every edge's source. -/
def degsK (dw : FVec F S3200000x1 .f32) (ei : IVec S2x3300000 32) (pm : IVec S3200000 32) : FVec F S3300000 .f32 :=
  Host.gather gather_S100000_S3300000x1_S3300000_n_0_n_n_0_1_1 (degK dw ei pm) (colN (wrapN (srcK ei)))

/-- The degree at every edge's destination. -/
def degdK (dw : FVec F S3200000x1 .f32) (ei : IVec S2x3300000 32) (pm : IVec S3200000 32) : FVec F S3300000 .f32 :=
  Host.gather gather_S100000_S3300000x1_S3300000_n_0_n_n_0_1_1 (degK dw ei pm) (colN (wrapN (dstK ei)))

/-- The source coefficient of every edge: its weight times the reciprocal square root of the product of the two degrees. -/
def coefsK (dw : FVec F S3200000x1 .f32) (ei : IVec S2x3300000 32) (pm : IVec S3200000 32) : FVec F S3300000 .f32 :=
  mulf (dfullK dw pm) (Host.rsqrt (mulf (degdK dw ei pm) (degsK dw ei pm)))

/-- The destination coefficient of every edge: its weight over the destination's degree. -/
def coefdK (dw : FVec F S3200000x1 .f32) (ei : IVec S2x3300000 32) (pm : IVec S3200000 32) : FVec F S3300000 .f32 :=
  Host.divf (dfullK dw pm) (degdK dw ei pm)

/-- The node features at every edge's source. -/
def ysK (y : FVec F S32x100000 .f32) (ei : IVec S2x3300000 32) : FVec F S32x3300000 .f32 :=
  Host.gather gather_S32x100000_S3300000x1_S32x3300000_0_1_n_n_1_1_321 y (colN (wrapN (srcK ei)))

/-- The node features at every edge's destination. -/
def ydK (y : FVec F S32x100000 .f32) (ei : IVec S2x3300000 32) : FVec F S32x3300000 .f32 :=
  Host.gather gather_S32x100000_S3300000x1_S32x3300000_0_1_n_n_1_1_321 y (colN (wrapN (dstK ei)))

/-- The two coefficient rows as the one-row arrays the region reads. -/
def cs2K (dw : FVec F S3200000x1 .f32) (ei : IVec S2x3300000 32) (pm : IVec S3200000 32) : FVec F S1x3300000 .f32 :=
  shapeCast S1x3300000 (coefsK dw ei pm) shapeCasts_S3300000_S1x3300000
def cd2K (dw : FVec F S3200000x1 .f32) (ei : IVec S2x3300000 32) (pm : IVec S3200000 32) : FVec F S1x3300000 .f32 :=
  shapeCast S1x3300000 (coefdK dw ei pm) shapeCasts_S3300000_S1x3300000

/-- The result from the region's message array: the messages summed onto their destination nodes, times one. -/
def tailK (ei : IVec S2x3300000 32) (out : FVec F S32x3300000 .f32) : FVec F S32x100000 .f32 :=
  mulf (broadcastInDim S32x100000 ![] bcast_S_S32x100000 (constant S_ .f32 0x3F800000#32))
    (Host.scatterAdd scatter_S32x100000_S3300000x1_S32x3300000_0_1_1_1
      (broadcastInDim S32x100000 ![] bcast_S_S32x100000 (constant S_ .f32 0x00000000#32)) (colN (wrapN (dstK ei))) out)

end Cert.KernelIdeal.Terms

end
-- ==== Proof.KernelHost.lean ====
/-
  The kernel program's host operations read back as values.

  Before its one region the program computes, from the four argument arrays, the four arrays the region
  reads: the node features gathered at every edge's source and at every edge's destination, and the two
  per-edge coefficient rows. After the region it sums the region's message array onto the destination
  nodes. Each of these buffers is shown to hold the corresponding named term of the argument arrays.
-/
import proofs.«170964_j5660766896726_2_alg».proof.Proof.Gen.KernelIdeal.Frame
import proofs.«170964_j5660766896726_2_alg».proof.Proof.KernelTerms

noncomputable section

namespace Cert.KernelIdeal.HostVal

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ)

/-! ## The arrays the region reads -/

set_option maxRecDepth 16384 in
set_option maxHeartbeats 40000000 in
/-- Row 1 of the edge list, as the region (and the lines after it) find it: the destination of every edge. -/
theorem V_v3 (c : Dev nD) :
    Gen.V m c main_v3 = Terms.dstK (m ((c : Thread nD τ).loc main_arg2)) := by
  show StableHlo.after hostOps0 (fun b => m (c, b)) (Proc.devRef .tc main_v3) = _
  after_results_simp
  rfl

set_option maxRecDepth 16384 in
set_option maxHeartbeats 40000000 in
/-- The region's first input: the node features gathered at every edge's source. -/
theorem V_v55 (c : Dev nD) :
    Gen.V m c main_v55 = Terms.ysK (m ((c : Thread nD τ).loc main_arg0)) (m ((c : Thread nD τ).loc main_arg2)) := by
  show StableHlo.after hostOps0 (fun b => m (c, b)) (Proc.devRef .tc main_v55) = _
  after_results_simp
  rfl

set_option maxRecDepth 16384 in
set_option maxHeartbeats 40000000 in
/-- The region's second input: the node features gathered at every edge's destination. -/
theorem V_v62 (c : Dev nD) :
    Gen.V m c main_v62 = Terms.ydK (m ((c : Thread nD τ).loc main_arg0)) (m ((c : Thread nD τ).loc main_arg2)) := by
  show StableHlo.after hostOps0 (fun b => m (c, b)) (Proc.devRef .tc main_v62) = _
  after_results_simp
  rfl

set_option maxRecDepth 16384 in
set_option maxHeartbeats 40000000 in
/-- The region's third input: the source coefficient of every edge, as one row. -/
theorem V_v63 (c : Dev nD) :
    Gen.V m c main_v63 = Terms.cs2K (m ((c : Thread nD τ).loc main_arg1)) (m ((c : Thread nD τ).loc main_arg2))
      (m ((c : Thread nD τ).loc main_arg3)) := by
  show StableHlo.after hostOps0 (fun b => m (c, b)) (Proc.devRef .tc main_v63) = _
  after_results_simp
  rfl

set_option maxRecDepth 16384 in
set_option maxHeartbeats 40000000 in
/-- The region's fourth input: the destination coefficient of every edge, as one row. -/
theorem V_v64 (c : Dev nD) :
    Gen.V m c main_v64 = Terms.cd2K (m ((c : Thread nD τ).loc main_arg1)) (m ((c : Thread nD τ).loc main_arg2))
      (m ((c : Thread nD τ).loc main_arg3)) := by
  show StableHlo.after hostOps0 (fun b => m (c, b)) (Proc.devRef .tc main_v64) = _
  after_results_simp
  rfl

/-! ## The same four arrays, named as the region's windows name them -/

/-- Window 0's array is the features gathered at the sources. -/
theorem V_arr0 (c : Dev nD) :
    Gen.V m c (Pipeline.arrRef spec0 0) = Terms.ysK (m ((c : Thread nD τ).loc main_arg0)) (m ((c : Thread nD τ).loc main_arg2)) :=
  V_v55 m c
/-- Window 1's array is the features gathered at the destinations. -/
theorem V_arr1 (c : Dev nD) :
    Gen.V m c (Pipeline.arrRef spec0 1) = Terms.ydK (m ((c : Thread nD τ).loc main_arg0)) (m ((c : Thread nD τ).loc main_arg2)) :=
  V_v62 m c
/-- Window 2's array is the row of source coefficients. -/
theorem V_arr2 (c : Dev nD) :
    Gen.V m c (Pipeline.arrRef spec0 2) = Terms.cs2K (m ((c : Thread nD τ).loc main_arg1)) (m ((c : Thread nD τ).loc main_arg2))
      (m ((c : Thread nD τ).loc main_arg3)) :=
  V_v63 m c
/-- Window 3's array is the row of destination coefficients. -/
theorem V_arr3 (c : Dev nD) :
    Gen.V m c (Pipeline.arrRef spec0 3) = Terms.cd2K (m ((c : Thread nD τ).loc main_arg1)) (m ((c : Thread nD τ).loc main_arg2))
      (m ((c : Thread nD τ).loc main_arg3)) :=
  V_v64 m c

/-! ## The result, after the region -/

set_option maxRecDepth 16384 in
set_option maxHeartbeats 40000000 in
/-- The program's result from the region's message array: the lines after the region sum the messages onto their
    destination nodes (the destinations being row 1 of the edge list, written before the region and untouched by it)
    and multiply by one. The message array is the region's fifth window, read where the region left it; every other
    buffer these lines read is as it was when the region was entered. -/
theorem tail_v75 (dats : (p : Fin 1) → (c : Dev nD) → Dat τ (Elt F) Unit ℕ (UR sig nD τ) ℕ (cfgs p) c)
    (hA : ∀ c w, (dats 0 c).A w = Gen.V m c (Pipeline.arrRef spec0 w)) (c : Dev nD) :
    Pipeline.afterTail₀ cfgs dats 0 (Gen.V0 m) [hostOps1] c main_v75
      = Terms.tailK (m ((c : Thread nD τ).loc main_arg2)) ((dats 0 c).arrAt 4 cfg0.N) := by
  unfold Pipeline.afterTail₀
  show StableHlo.after hostOps1 (Pipeline.withArrays spec0 c (Gen.V0 m c) fun w => (dats 0 c).arrAt w cfg0.N)
    (Proc.devRef .tc main_v75) = _
  after_results_simp
  have h65 : Pipeline.withArrays spec0 c (Gen.V0 m c) (fun w => (dats 0 c).arrAt w cfg0.N) (Proc.devRef .tc main_v65)
      = (dats 0 c).arrAt 4 cfg0.N :=
    Pipeline.withArrays_arr spec0 launch0.win.arr_inj c _ _ 4
  rw [Pipeline.withArrays_of_ne spec0 c (Gen.V0 m c) _ main_v3 (by decide), h65,
    show Gen.V0 m c (Proc.devRef .tc main_v3) = _ from V_v3 m c]
  rfl

end Cert.KernelIdeal.HostVal

end
-- ==== Proof.KernelRun.lean ====
/-
  The kernel program's run with its result named.

  The program computes, on the host, the node features gathered at every edge's source and destination and the
  two per-edge coefficient rows; its one pipelined region writes the message array of these four; and the host
  lines after the region sum the messages onto their destination nodes. The region's frame run leaves the result
  buffer at what those last lines compute from the region's output array; that array is the message array of
  the region's four inputs; and those inputs are the named terms of the argument arrays. Chained, the result buffer
  is one term of the four argument arrays, which themselves end as they began.
-/
import proofs.«170964_j5660766896726_2_alg».proof.Proof.BodyIdeal
import proofs.«170964_j5660766896726_2_alg».proof.Proof.KernelHost

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-! ## The program's run, its result named -/

/-- At the compiled mesh, for any values, from any memory with zero counters: every weakly fair execution of @main
    on the TensorCores terminates, and in every final state the result buffer holds the scatter-sum, by destination
    node, of the message array of the four arrays the host lines before the region compute from the arguments — the
    features gathered at the sources and at the destinations and the two coefficient rows —, and the four argument
    arrays hold what they held. -/
theorem kernel_run : θ_run defs (onTc (τ := τ) (main (F := F))) ⟨m, fun _ => 0, ρ⟩ (fun r => ∀ c : Dev nD,
      r.2.mem ((c.tc : Thread nD τ).loc main_v75)
        = Terms.tailK (m ((c.tc : Thread nD τ).loc main_arg2))
            (Cert.Spec.msgArr
              (Terms.ysK (m ((c.tc : Thread nD τ).loc main_arg0)) (m ((c.tc : Thread nD τ).loc main_arg2)))
              (Terms.ydK (m ((c.tc : Thread nD τ).loc main_arg0)) (m ((c.tc : Thread nD τ).loc main_arg2)))
              (Terms.cs2K (m ((c.tc : Thread nD τ).loc main_arg1)) (m ((c.tc : Thread nD τ).loc main_arg2))
                (m ((c.tc : Thread nD τ).loc main_arg3)))
              (Terms.cd2K (m ((c.tc : Thread nD τ).loc main_arg1)) (m ((c.tc : Thread nD τ).loc main_arg2))
                (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v75 (Pipeline.mem_restRefs_of main_v75 (by decide) (by decide))).trans
        ((HostVal.tail_v75 m (dats m) (A_eq m) c).trans
          (congrArg (Terms.tailK (F := F) (m ((c.tc : Thread nD τ).loc main_arg2)))
            ((out_final' m c).trans
              (congr (congr (congr (congrArg (Cert.Spec.msgArr (F := F)) (HostVal.V_arr0 m c)) (HostVal.V_arr1 m c))
                (HostVal.V_arr2 m c)) (HostVal.V_arr3 m c))))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand
end
-- ==== Proof.PreDecode.lean ====
/-
  What the precondition says, element by element, at the extended reals.

  The precondition is the conjunction of four "for all" statements, each printed as a reduction by
  `and` of a pointwise test:
    * every node feature has absolute value below +∞, so it is a real number;
    * every distance logit likewise;
    * every destination index lies in [0, 100000), the range of the node axis it indexes;
    * for every edge the product of the weighted degrees at its destination and at its source —
      the number under the reference's square root — is positive.
  The degrees in the last test are computed by the same operations, in the same order, as the
  reference computes them, so the test speaks of the reference's own intermediate value.
-/
import proofs.«170964_j5660766896726_2_alg».proof.Pre_finite_inputs
import proofs.«170964_j5660766896726_2_alg».proof.Proof.Gen.Pre_finite_inputs
import proofs.«170964_j5660766896726_2_alg».proof.Proof.Gen.ReferenceIdeal.Read
import Idealize.ShloMosaic.Lib.ReduceAll
import Idealize.ShloMosaic.Lib.Affine
import Idealize.ShloMosaic.PureOps.Ideal.Laws

noncomputable section

namespace Cert.PreDecode

open Idealize.ShloMosaic Cert.ReferenceIdeal

instance : Subsingleton (⟨0, ![]⟩ : Shape).Idx := ⟨fun a b => funext fun d => d.elim0⟩

/-- A one-bit word built from a Boolean is `1` exactly when the Boolean is true. -/
theorem ofBool_one {b : Bool} : BitVec.ofBool b = 1#1 ↔ b = true := by cases b <;> decide

/-- The pattern of +∞ denotes the top of the extended reals. -/
theorem ofBits_inf : Ideal.ofBits .f32 0x7F800000#32 = (⊤ : EReal) := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    have := ofBool_one.1 h
    simpa using this
  induction x using EReal.rec with
  | bot => simp at hlt
  | top => simp at hlt
  | coe r => exact ⟨r, rfl⟩

/-- A broadcast of the zero pattern is zero at every index. -/
theorem bcast_zero (t : Shape) (hb : (⟨0, ![]⟩ : Shape).BroadcastsInDim t ![]) (e : t.Idx) :
    broadcastInDim t ![] hb (constant (F := Ideal) ⟨0, ![]⟩ .f32 0x00000000#32) e = (0 : EReal) := by
  simp only [broadcastInDim, constant, Ideal.ofBits_def, Ideal.ofBits_zero_f32]

/-- A pointwise "greater than" test against an array that is zero at `e`, when it answers `1` at `e`, says the
    element there is positive. -/
theorem pos_of_ogt {s : Shape} (P Z : FVec Ideal s .f32) (e : s.Idx) (hz : Z e = (0 : EReal))
    (hc : cmpf .ogt P Z e = 1#1) : (0 : EReal) < P e := by
  have h' : Ideal.cmp .ogt (P e) (Z e) = 1#1 := hc
  rw [hz] at h'
  unfold Ideal.cmp at h'
  have := ofBool_one.1 h'
  simpa using this

set_option maxRecDepth 400000 in
/-- The four conjuncts of the precondition, read at an element. -/
theorem decode (y : FVec Ideal S32x100000 .f32) (dw : FVec Ideal S3200000x1 .f32) (ei : IVec S2x3300000 32)
    (pm : IVec S3200000 32) (h : Cert.Pre_finite_inputs.fn (F := Ideal) y dw ei pm = fun _ => 1#1) :
    (∀ i, ∃ r : ℝ, y i = (r : EReal)) ∧ (∀ i, ∃ r : ℝ, dw i = (r : EReal))
      ∧ (∀ e, 0 ≤ (Read.val_main_v22 (F := Ideal) ei e).toInt ∧ (Read.val_main_v22 (F := Ideal) ei e).toInt < 100000)
      ∧ (∀ e, (0 : EReal) < Read.val_main_v47 (F := Ideal) dw ei pm e) := by
  have h0 := congrFun h (fun a => a.elim0)
  dsimp only [Cert.Pre_finite_inputs.fn, Cert.Pre_finite_inputs.fn_part1, Cert.Pre_finite_inputs.fn_part2,
    Cert.Pre_finite_inputs.fn_part3] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun e => ?_, fun e => ?_⟩
  · exact real_of_abs_lt _ (Host.reduce_andi_all _ _ _ _ _ h1 i)
  · exact real_of_abs_lt _ (Host.reduce_andi_all _ _ _ _ _ h2 i)
  · have he := Host.reduce_andi_all _ _ _ _ _ h3 e
    obtain ⟨hge, hlt⟩ := IntOp.andi_eq_one.1 he
    have hge' : (0#32 : BitVec 32).toInt ≤ (Read.val_main_v22 (F := Ideal) ei e).toInt := IntOp.cmpi_sge.1 hge
    have hlt' : (Read.val_main_v22 (F := Ideal) ei e).toInt < (100000#32 : BitVec 32).toInt := IntOp.cmpi_slt.1 hlt
    rw [show (0#32 : BitVec 32).toInt = 0 by decide] at hge'
    rw [show (100000#32 : BitVec 32).toInt = 100000 by decide] at hlt'
    exact ⟨hge', hlt'⟩
  · have hp := pos_of_ogt _ _ e (bcast_zero _ _ e) (Host.reduce_andi_all _ _ _ _ _ h4 e)
    clear h4 h3 h2 h1 h12 h123 h0 h
    simp only [Read.val_main_v47, Read.val_main_v46, Read.val_main_v45, Read.val_main_v44, Read.val_main_v43, Read.val_main_v42, Read.val_main_c_10, Read.val_main_v41, Read.val_main_v40, Read.val_main_c_9, Read.val_main_v39, Read.val_main_v38, Read.val_main_v37, Read.val_main_v36, Read.val_main_v35, Read.val_main_c_8, Read.val_main_v34, Read.val_main_v33, Read.val_main_c_7, Read.val_main_v32, Read.val_main_v31, Read.val_main_v30, Read.val_main_v29, Read.val_main_v28, Read.val_main_c_6, Read.val_main_v27, Read.val_main_v26, Read.val_main_c_5, Read.val_main_v25, Read.val_main_v24, Read.val_main_v23, Read.val_main_cst_4, Read.val_main_v22, Read.val_main_v21, Read.val_main_v20, Read.val_main_v19, Read.val_main_v18, Read.val_main_v17, Read.val_main_v16, Read.val_main_cst_3, Read.val_main_v15, Read.val_main_v14, Read.val_main_cst_2, Read.val_main_v13, Read.val_main_v12, Read.val_main_cst_1, Read.val_main_v11, Read.val_main_v10, Read.val_main_v9, Read.val_main_v8, Read.val_main_cst, Read.val_main_v7, Read.val_main_v6, Read.val_main_v5, Read.val_main_v4, Read.val_main_v3, Read.val_main_v2, Read.val_main_c_0, Read.val_main_v1, Read.val_main_v0, Read.val_main_c]
    convert hp using 40
    all_goals rfl

end Cert.PreDecode

end
-- ==== Proof.LibGatherScatter.lean ====
import proofs.«170964_j5660766896726_2_alg».proof.KernelIdeal
import proofs.«170964_j5660766896726_2_alg».proof.ReferenceIdeal
import proofs.«170964_j5660766896726_2_alg».proof.Proof.Gen.KernelIdeal
import proofs.«170964_j5660766896726_2_alg».proof.Proof.Gen.ReferenceIdeal
import Idealize.ShloMosaic.Lib.ValueIdx
import Idealize.ShloMosaic.PureOps.Ideal
import Idealize.ShloMosaic.Lib.Pipeline.Value

/-! # The gathers and the scatter-adds of the two programs, read at an index

The two programs compute one graph Laplacian with differently laid-out gathers and scatters. This file reads each
of those operations at ONE index: a gather's element is the operand's at the start index read signed and clamped
into the operand; a scatter-add's element is the operand's plus the exact sum of the updates whose start index,
read signed and not clamped, lands there. The main statement is that scattering the updates `[32, E]` along
axis 1 of `[32, N]` and scattering the transposed updates `[E, 32]` along axis 0 of `[N, 32]` give transposed
results. Floats are extended reals throughout. -/

noncomputable section

open scoped BigOperators

namespace Cert.GS

open Idealize.ShloMosaic Idealize.ShloMosaic.ValueIdx

/-! ## Realness and membership, for any dimension numbers -/

/-- A finite sum of extended reals that are all real numbers is a real number. -/
theorem sum_real {ι : Type*} (S : Finset ι) (g : ι → EReal) (hg : ∀ j, ∃ r : ℝ, g j = (r : EReal)) :
    ∃ r : ℝ, ∑ j ∈ S, g j = (r : EReal) := by
  classical
  induction S using Finset.induction_on with
  | empty => exact ⟨0, by simp⟩
  | insert a S ha ih =>
    obtain ⟨r, hr⟩ := ih
    obtain ⟨q, hq⟩ := hg a
    exact ⟨q + r, by rw [Finset.sum_insert ha, hr, hq, EReal.coe_add]⟩

/-- A scatter-add of real updates into a real operand is real at every index: each element is the operand's plus a
    finite sum of updates. -/
theorem hostScatterAdd_real {s si su : Shape} (d : ScatterDims s si su) {w : Nat} (x : s.Idx → EReal)
    (idx : IVec si w) (upd : su.Idx → EReal) (hx : ∀ i, ∃ r : ℝ, x i = (r : EReal))
    (hu : ∀ j, ∃ r : ℝ, upd j = (r : EReal)) (i : s.Idx) :
    ∃ r : ℝ, Ideal.hostScatterAdd d x idx upd i = (r : EReal) := by
  unfold Ideal.hostScatterAdd
  obtain ⟨q, hq⟩ := hx i
  obtain ⟨r, hr⟩ := sum_real (Finset.univ.filter (fun j => d.resultIdx? j idx = some i)) upd hu
  exact ⟨q + r, by rw [hq, hr, EReal.coe_add]⟩

/-- Every element of a gather is an element of its operand. -/
theorem gather_mem {α : Type} {s si t : Shape} (d : GatherDims s si t) {w : Nat} (x : s.Idx → α) (idx : IVec si w)
    (y : t.Idx) : ∃ i' : s.Idx, Host.gather d x idx y = x i' :=
  ⟨d.operandIdx y idx, rfl⟩

/-! ## The records the two programs share -/

/-- The degree scatter's dimension numbers are the same record in the two programs. -/
theorem scatter_deg_eq :
    Cert.KernelIdeal.scatter_S100000_S3300000x1_S3300000_n_0_0_1
      = Cert.ReferenceIdeal.scatter_S100000_S3300000x1_S3300000_n_0_0_1 := rfl

/-- The degree gather's dimension numbers are the same record in the two programs. -/
theorem gather_deg_eq :
    Cert.KernelIdeal.gather_S100000_S3300000x1_S3300000_n_0_n_n_0_1_1
      = Cert.ReferenceIdeal.gather_S100000_S3300000x1_S3300000_n_0_n_n_0_1_1 := rfl

/-- The node-feature gather's dimension numbers are the same record in the two programs. -/
theorem gather_feat_eq :
    Cert.KernelIdeal.gather_S32x100000_S3300000x1_S32x3300000_0_1_n_n_1_1_321
      = Cert.ReferenceIdeal.gather_S32x100000_S3300000x1_S32x3300000_0_1_n_n_1_1_321 := rfl

/-! ## A scatter's landing index, for any dimension numbers -/

/-- An update lands at operand index `i` exactly when, on every operand axis, its start (read signed, not clamped)
    plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrFun (Option.some.inj h) a
      have hv := congrArg Fin.val h1
      simp only at hv
      have := hc a
      omega
    · exact absurd h (by simp)
  · intro h
    have hc : ∀ a, 0 ≤ d.start j idx a + d.window j a ∧ d.start j idx a + d.window j a < s.size a := by
      intro a
      have := h a
      have := (i a).isLt
      omega
    rw [dif_pos hc]
    congr 1
    funext a
    apply Fin.ext
    have := h a
    simp only
    omega

/-! ## The final scatter in the two layouts -/

/-- The kernel's final scatter: updates `[32, E]` into `[32, N]` along axis 1. -/
abbrev recK := Cert.KernelIdeal.scatter_S32x100000_S3300000x1_S32x3300000_0_1_1_1
/-- The reference's final scatter: updates `[E, 32]` into `[N, 32]` along axis 0. -/
abbrev recR := Cert.ReferenceIdeal.scatter_S100000x32_S3300000x1_S3300000x32_1_0_0_1

theorem recK_start1 {w : Nat} (f : Fin 32) (e : Fin 3300000) (idx : IVec ⟨2, ![3300000, 1]⟩ w) :
    recK.start (ix2 f e) idx 1 = (idx (ix2 e 0)).toInt := by
  unfold ScatterDims.start
  rw [dif_pos (show (1 : Fin 2) ∈ recK.scatterDimsToOperandDims from List.mem_singleton.mpr rfl)]
  congr 2
  funext b
  refine Fin.ext ?_
  match b with
  | ⟨0, _⟩ => rfl
  | ⟨1, _⟩ => rfl

theorem recK_start0 {w : Nat} (f : Fin 32) (e : Fin 3300000) (idx : IVec ⟨2, ![3300000, 1]⟩ w) :
    recK.start (ix2 f e) idx 0 = 0 := by
  unfold ScatterDims.start
  rw [dif_neg (show (0 : Fin 2) ∉ recK.scatterDimsToOperandDims by decide)]

theorem recK_window0 (f : Fin 32) (e : Fin 3300000) : recK.window (ix2 f e) 0 = f.val := by
  unfold ScatterDims.window
  rw [dif_pos (show (0 : Fin 2) ∈ recK.sKept by decide)]
  rfl

theorem recK_window1 (f : Fin 32) (e : Fin 3300000) : recK.window (ix2 f e) 1 = 0 := by
  unfold ScatterDims.window
  rw [dif_neg (show (1 : Fin 2) ∉ recK.sKept by decide)]

theorem recR_start0 {w : Nat} (e : Fin 3300000) (f : Fin 32) (idx : IVec ⟨2, ![3300000, 1]⟩ w) :
    recR.start (ix2 e f) idx 0 = (idx (ix2 e 0)).toInt := by
  unfold ScatterDims.start
  rw [dif_pos (show (0 : Fin 2) ∈ recR.scatterDimsToOperandDims from List.mem_singleton.mpr rfl)]
  congr 2
  funext b
  refine Fin.ext ?_
  match b with
  | ⟨0, _⟩ => rfl
  | ⟨1, _⟩ => rfl

theorem recR_start1 {w : Nat} (e : Fin 3300000) (f : Fin 32) (idx : IVec ⟨2, ![3300000, 1]⟩ w) :
    recR.start (ix2 e f) idx 1 = 0 := by
  unfold ScatterDims.start
  rw [dif_neg (show (1 : Fin 2) ∉ recR.scatterDimsToOperandDims by decide)]

theorem recR_window0 (e : Fin 3300000) (f : Fin 32) : recR.window (ix2 e f) 0 = 0 := by
  unfold ScatterDims.window
  rw [dif_neg (show (0 : Fin 2) ∉ recR.sKept by decide)]

theorem recR_window1 (e : Fin 3300000) (f : Fin 32) : recR.window (ix2 e f) 1 = f.val := by
  unfold ScatterDims.window
  rw [dif_pos (show (1 : Fin 2) ∈ recR.sKept by decide)]
  rfl

/-- In the kernel's layout, update `(f', e)` lands at `(f, n)` exactly when it is in row `f` and edge `e`'s index,
    read signed, is `n`. -/
theorem recK_lands_iff {w : Nat} (f f' : Fin 32) (e : Fin 3300000) (n : Fin 100000) (idx : IVec ⟨2, ![3300000, 1]⟩ w) :
    recK.resultIdx? (ix2 f' e) idx = some (ix2 f n) ↔ f' = f ∧ (idx (ix2 e 0)).toInt = (n.val : Int) := by
  rw [resultIdx?_eq_some_iff]
  constructor
  · intro h
    have h0 := h 0
    have h1 := h 1
    rw [recK_start0, recK_window0] at h0
    rw [recK_start1, recK_window1] at h1
    refine ⟨Fin.ext ?_, ?_⟩
    · have : ((f'.val : Nat) : Int) = (f.val : Int) := by simpa using h0
      exact_mod_cast this
    · simpa using h1
  · rintro ⟨rfl, h⟩ a
    match a with
    | ⟨0, _⟩ =>
      show recK.start (ix2 f' e) idx 0 + (recK.window (ix2 f' e) 0 : Int) = _
      rw [recK_start0, recK_window0]; simp
    | ⟨1, _⟩ =>
      show recK.start (ix2 f' e) idx 1 + (recK.window (ix2 f' e) 1 : Int) = _
      rw [recK_start1, recK_window1, h]; simp

/-- In the reference's layout, update `(e, f')` lands at `(n, f)` under the same condition. -/
theorem recR_lands_iff {w : Nat} (f f' : Fin 32) (e : Fin 3300000) (n : Fin 100000) (idx : IVec ⟨2, ![3300000, 1]⟩ w) :
    recR.resultIdx? (ix2 e f') idx = some (ix2 n f) ↔ f' = f ∧ (idx (ix2 e 0)).toInt = (n.val : Int) := by
  rw [resultIdx?_eq_some_iff]
  constructor
  · intro h
    have h0 := h 0
    have h1 := h 1
    rw [recR_start0, recR_window0] at h0
    rw [recR_start1, recR_window1] at h1
    refine ⟨Fin.ext ?_, ?_⟩
    · have : ((f'.val : Nat) : Int) = (f.val : Int) := by simpa using h1
      exact_mod_cast this
    · simpa using h0
  · rintro ⟨rfl, h⟩ a
    match a with
    | ⟨0, _⟩ =>
      show recR.start (ix2 e f') idx 0 + (recR.window (ix2 e f') 0 : Int) = _
      rw [recR_start0, recR_window0, h]; simp
    | ⟨1, _⟩ =>
      show recR.start (ix2 e f') idx 1 + (recR.window (ix2 e f') 1 : Int) = _
      rw [recR_start1, recR_window1]; simp

/-- Exchanging the two coordinates of a rank-2 index: a bijection between the index sets of an array and of its
    transpose. -/
def swapIdx {n0 n1 : Nat} : (⟨2, ![n0, n1]⟩ : Shape).Idx ≃ (⟨2, ![n1, n0]⟩ : Shape).Idx where
  toFun j := ix2 (j 1) (j 0)
  invFun j := ix2 (j 1) (j 0)
  left_inv j := (eq_ix2 j).symm
  right_inv j := (eq_ix2 j).symm

/-- THE FINAL SCATTER IN THE TWO LAYOUTS. Scatter-adding updates `u : [32, E]` into `x : [32, N]` along axis 1, read
    at `(f, n)`, is scatter-adding the transposed updates `u' : [E, 32]` into the transposed operand `x' : [N, 32]`
    along axis 0, read at `(n, f)`: on both sides the updates that land are those of feature `f` on the edges whose
    index, read signed, is `n`, and exchanging the coordinates matches them one to one. -/
theorem scatter_transposed {w : Nat} (idx : IVec ⟨2, ![3300000, 1]⟩ w)
    (u : (⟨2, ![32, 3300000]⟩ : Shape).Idx → EReal) (u' : (⟨2, ![3300000, 32]⟩ : Shape).Idx → EReal)
    (x : (⟨2, ![32, 100000]⟩ : Shape).Idx → EReal) (x' : (⟨2, ![100000, 32]⟩ : Shape).Idx → EReal)
    (hx : ∀ n f, x' (ix2 n f) = x (ix2 f n)) (hu : ∀ e f, u' (ix2 e f) = u (ix2 f e))
    (f : Fin 32) (n : Fin 100000) :
    Ideal.hostScatterAdd recK x idx u (ix2 f n) = Ideal.hostScatterAdd recR x' idx u' (ix2 n f) := by
  unfold Ideal.hostScatterAdd
  rw [hx n f]
  refine congrArg (x (ix2 f n) + ·) ?_
  refine Finset.sum_equiv swapIdx ?_ ?_
  · intro j
    obtain ⟨f', e, rfl⟩ : ∃ a b, j = ix2 a b := ⟨j 0, j 1, eq_ix2 j⟩
    simp only [Finset.mem_filter, Finset.mem_univ, true_and]
    show recK.resultIdx? (ix2 f' e) idx = some (ix2 f n) ↔ recR.resultIdx? (ix2 e f') idx = some (ix2 n f)
    rw [recK_lands_iff, recR_lands_iff]
  · intro j _
    obtain ⟨f', e, rfl⟩ : ∃ a b, j = ix2 a b := ⟨j 0, j 1, eq_ix2 j⟩
    exact (hu e f').symm

/-- The same with the transposed updates spelled as a function of the index. -/
theorem scatter_transposed' {w : Nat} (idx : IVec ⟨2, ![3300000, 1]⟩ w)
    (u : (⟨2, ![32, 3300000]⟩ : Shape).Idx → EReal)
    (x : (⟨2, ![32, 100000]⟩ : Shape).Idx → EReal) (x' : (⟨2, ![100000, 32]⟩ : Shape).Idx → EReal)
    (hx : ∀ n f, x' (ix2 n f) = x (ix2 f n)) (f : Fin 32) (n : Fin 100000) :
    Ideal.hostScatterAdd recK x idx u (ix2 f n)
      = Ideal.hostScatterAdd recR x' idx (fun j : (⟨2, ![3300000, 32]⟩ : Shape).Idx => u (ix2 (j 1) (j 0))) (ix2 n f) :=
  scatter_transposed idx u _ x x' hx (fun _ _ => rfl) f n

/-- A transpose `[a, b] → [b, a]` read at `(i, j)` is the operand at `(j, i)`. -/
theorem transpose2_apply {α : Type} {a b : Nat} (v : (⟨2, ![a, b]⟩ : Shape).Idx → α)
    (h : (⟨2, ![a, b]⟩ : Shape).Transposes [1, 0] ⟨2, ![b, a]⟩) (i : Fin b) (j : Fin a) :
    transpose ⟨2, ![b, a]⟩ [1, 0] v h (ix2 i j) = v (ix2 j i) :=
  transpose_apply [1, 0] v h (ix2 i j) (ix2 j i) (fun c => by
    match c with
    | ⟨0, _⟩ => rfl
    | ⟨1, _⟩ => rfl)

/-- The reference's chain — transpose the updates, scatter-add along axis 0, transpose the result back — read at
    `(f, n)` is the kernel's scatter-add along axis 1, when the reference's operand is the kernel's transposed. -/
theorem scatter_transposed_chain {w : Nat} (idx : IVec ⟨2, ![3300000, 1]⟩ w)
    (u : (⟨2, ![32, 3300000]⟩ : Shape).Idx → EReal)
    (x : (⟨2, ![32, 100000]⟩ : Shape).Idx → EReal) (x' : (⟨2, ![100000, 32]⟩ : Shape).Idx → EReal)
    (hx : ∀ n f, x' (ix2 n f) = x (ix2 f n))
    (h1 : (⟨2, ![32, 3300000]⟩ : Shape).Transposes [1, 0] ⟨2, ![3300000, 32]⟩)
    (h2 : (⟨2, ![100000, 32]⟩ : Shape).Transposes [1, 0] ⟨2, ![32, 100000]⟩)
    (f : Fin 32) (n : Fin 100000) :
    transpose ⟨2, ![32, 100000]⟩ [1, 0]
        (Ideal.hostScatterAdd recR x' idx (transpose ⟨2, ![3300000, 32]⟩ [1, 0] u h1)) h2 (ix2 f n)
      = Ideal.hostScatterAdd recK x idx u (ix2 f n) := by
  rw [transpose2_apply]
  exact (scatter_transposed idx u _ x x' hx (fun e f => transpose2_apply u h1 e f) f n).symm

/-! ## The two gathers of the distance logits -/

/-- The kernel's gather of the flattened logits `[E0]` at the indices `[E0, 1]`. -/
abbrev recG1 := Cert.KernelIdeal.gather_S3200000_S3200000x1_S3200000_n_0_n_n_0_1_1
/-- The reference's gather of the logits `[E0, 1]` at the indices `[E0, 1]`. -/
abbrev recG2 := Cert.ReferenceIdeal.gather_S3200000x1_S3200000x1_S3200000x1_1_0_n_n_0_1_11

/-- The kernel's gather read at `k`: the operand at index `idx[k, 0]`, read signed and clamped into `[0, E0 − 1]`. -/
theorem gather_flat_apply {α : Type} {w : Nat} (x : (⟨1, ![3200000]⟩ : Shape).Idx → α)
    (idx : IVec ⟨2, ![3200000, 1]⟩ w) (k : Fin 3200000) :
    Host.gather recG1 x idx (ix1 k) = x (ix1 ⟨min (idx (ix2 k 0)).toInt.toNat 3199999, by omega⟩) := by
  unfold Host.gather
  refine congrArg x ?_
  funext a
  obtain rfl : a = 0 := Subsingleton.elim _ _
  refine Fin.ext ?_
  show recG1.start (ix1 k) idx 0 + recG1.batchCoord (ix1 k) 0 + recG1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ recG1.startIndexMap from List.mem_singleton.mpr rfl)]
  have hsi : recG1.siIdx (ix1 k) ⟨List.idxOf (0 : Fin 1) recG1.startIndexMap,
      List.idxOf_lt_length_iff.2 (List.mem_singleton.mpr rfl)⟩ = ix2 k 0 := by
    funext b; refine Fin.ext ?_
    match b with
    | ⟨0, _⟩ => rfl
    | ⟨1, _⟩ => rfl
  rw [hsi]
  rfl

/-- The reference's gather read at `(k, 0)`: the operand at row `idx[k, 0]`, read signed and clamped into
    `[0, E0 − 1]`, column 0. -/
theorem gather_col_apply {α : Type} {w : Nat} (x : (⟨2, ![3200000, 1]⟩ : Shape).Idx → α)
    (idx : IVec ⟨2, ![3200000, 1]⟩ w) (k : Fin 3200000) :
    Host.gather recG2 x idx (ix2 k 0) = x (ix2 ⟨min (idx (ix2 k 0)).toInt.toNat 3199999, by omega⟩ 0) := by
  unfold Host.gather
  refine congrArg x ?_
  funext a
  match a with
  | ⟨1, _⟩ => exact (Subsingleton.elim (α := Fin 1) _ _)
  | ⟨0, _⟩ =>
    refine Fin.ext ?_
    show recG2.start (ix2 k 0) idx 0 + recG2.batchCoord (ix2 k 0) 0 + recG2.offCoord (ix2 k 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ recG2.startIndexMap from List.mem_singleton.mpr rfl)]
    have hsi : recG2.siIdx (ix2 k 0) ⟨List.idxOf (0 : Fin 2) recG2.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-! ## The programs' spelling -/

/-- At the exact instance a program's scatter-add is the exact sum above, at any dimension numbers. -/
theorem scatterAdd_ideal {s si su : Shape} {φ : FTy} (d : ScatterDims s si su) {w : Nat} (x : FVec Ideal s φ)
    (idx : IVec si w) (upd : FVec Ideal su φ) :
    Host.scatterAdd d x idx upd = Ideal.hostScatterAdd d x idx upd := rfl

end Cert.GS

end
-- ==== Proof.EdgeWeights.lean ====
import proofs.«170964_j5660766896726_2_alg».proof.Proof.LibGatherScatter
import proofs.«170964_j5660766896726_2_alg».proof.Proof.KernelTerms
import proofs.«170964_j5660766896726_2_alg».proof.Proof.Gen.ReferenceIdeal.Read

/-! # The edge weights of the two programs

Both programs turn the per-edge distance logits into edge weights: the logistic function of the mean of an edge's
logit and its reverse edge's, followed by a one for every trailing self-loop. One program works on the logits as a
flat row, the other on the logits as a one-column array that it flattens at the end. This file reads both weight
arrays at an index, shows that they are the same array, and that every weight is a real number when the logits are.
Floats are extended reals throughout. -/

noncomputable section

namespace Cert.EdgeWeights

open Idealize.ShloMosaic Idealize.ShloMosaic.ValueIdx Cert.GS

/-- The weight of an edge from its reverse edge's logit `a` and its own logit `b`, as both programs spell it:
    `1 / (1 + exp (−((a + b) · ½)))`, the constants being the patterns of `1` and `½`. -/
def wgt (a b : EReal) : EReal :=
  Ideal.div (Ideal.ofBits .f32 0x3F800000#32)
    (Ideal.ofBits .f32 0x3F800000#32 + Ideal.exp (-((a + b) * Ideal.ofBits .f32 0x3F000000#32)))

/-- The pattern `0x3F800000` is the number one. -/
theorem one_bits : Ideal.ofBits .f32 0x3F800000#32 = ((1 : ℝ) : EReal) := by
  simp [Ideal.ofBits, Ideal.ieee, -EReal.coe_mul]; norm_num

/-- The pattern `0x3F000000` is the number one half. -/
theorem half_bits : Ideal.ofBits .f32 0x3F000000#32 = (((1 : ℝ) / 2 : ℝ) : EReal) := by
  simp [Ideal.ofBits, Ideal.ieee, -EReal.coe_mul]; norm_num

/-- The weight is a real number when the two logits are: the exponential of a real is a positive real, so the
    denominator is a nonzero real. -/
theorem wgt_real (a b : ℝ) : ∃ r : ℝ, wgt (a : EReal) (b : EReal) = (r : EReal) := by
  unfold wgt
  rw [one_bits, half_bits, ← EReal.coe_add, ← EReal.coe_mul, ← EReal.coe_neg, Ideal.exp_coe, ← EReal.coe_add]
  have hpos : (1 : ℝ) + Real.exp (-((a + b) * (1 / 2))) ≠ 0 := by
    have := Real.exp_pos (-((a + b) * (1 / 2)))
    linarith
  rw [Ideal.div_coe hpos, ← EReal.coe_mul]
  exact ⟨_, rfl⟩

/-- A row of indices broadcast to a one-column array, read at `(k, 0)`, is the row at `k`. -/
theorem col_apply {α : Type} (v : (⟨1, ![3200000]⟩ : Shape).Idx → α)
    (hb : (⟨1, ![3200000]⟩ : Shape).BroadcastsInDim ⟨2, ![3200000, 1]⟩ ![0]) (k : Fin 3200000) :
    broadcastInDim ⟨2, ![3200000, 1]⟩ ![0] hb v (ix2 k 0) = v (ix1 k) :=
  broadcastInDim_apply _ hb v (ix2 k 0) (ix1 k) (fun a => match a with
    | ⟨0, _⟩ => by show k.val = if (3200000 : Nat) = 1 then 0 else k.val; rw [if_neg (by decide)])

/-! ## The flat program's weights read at an index -/

/-- The flattened logits at `m` are the column's at `(m, 0)`. -/
theorem dwFlat_apply (dw : FVec Ideal Cert.KernelIdeal.S3200000x1 .f32) (m : Fin 3200000) :
    Cert.KernelIdeal.Terms.dwFlat dw (ix1 m) = dw (ix2 m 0) := by
  unfold Cert.KernelIdeal.Terms.dwFlat
  exact shapeCast_apply dw _ (ix1 m) (ix2 m 0)
    (by rw [Shape.rowMajor_val_two, Shape.rowMajor_val_one]; show m.val * 1 + 0 = m.val; omega)

/-- The index the flat program's gather reads for edge `k`: the wrapped permutation entry, signed, clamped. -/
def revK (pm : IVec Cert.KernelIdeal.S3200000 32) (k : Fin 3200000) : Fin 3200000 :=
  ⟨min (Cert.KernelIdeal.Terms.wrapE pm (ix1 k)).toInt.toNat 3199999, by omega⟩

/-- A non-loop edge's weight in the flat program. -/
theorem dfullK_lt (dw : FVec Ideal Cert.KernelIdeal.S3200000x1 .f32) (pm : IVec Cert.KernelIdeal.S3200000 32)
    (e : Fin 3300000) (h : e.val < 3200000) :
    Cert.KernelIdeal.Terms.dfullK (F := Ideal) dw pm (ix1 e)
      = wgt (dw (ix2 (revK pm ⟨e.val, h⟩) 0)) (dw (ix2 ⟨e.val, h⟩ 0)) := by
  unfold Cert.KernelIdeal.Terms.dfullK
  refine (concatenate_pair_apply_left (t := Cert.KernelIdeal.S3300000) (s₁ := Cert.KernelIdeal.S3200000)
    (s₂ := Cert.KernelIdeal.S100000) (0 : Fin 1) _ _ _ (ix1 e) rfl (ix1 (⟨e.val, h⟩ : Fin 3200000))
    (fun b => by match b with | ⟨0, _⟩ => rfl)).trans ?_
  show wgt (Host.gather recG1 (Cert.KernelIdeal.Terms.dwFlat dw) _ (ix1 ⟨e.val, h⟩))
    (Cert.KernelIdeal.Terms.dwFlat dw (ix1 ⟨e.val, h⟩)) = _
  rw [gather_flat_apply, dwFlat_apply, dwFlat_apply]
  refine congrArg (fun m : Fin 3200000 => wgt (dw (ix2 m 0)) (dw (ix2 ⟨e.val, h⟩ 0))) (Fin.ext ?_)
  show min _ 3199999 = min _ 3199999
  rw [col_apply]

/-- A self-loop's weight in the flat program is one. -/
theorem dfullK_ge (dw : FVec Ideal Cert.KernelIdeal.S3200000x1 .f32) (pm : IVec Cert.KernelIdeal.S3200000 32)
    (e : Fin 3300000) (h : 3200000 ≤ e.val) :
    Cert.KernelIdeal.Terms.dfullK (F := Ideal) dw pm (ix1 e) = Ideal.ofBits .f32 0x3F800000#32 := by
  unfold Cert.KernelIdeal.Terms.dfullK
  refine (concatenate_pair_apply_right (t := Cert.KernelIdeal.S3300000) (s₁ := Cert.KernelIdeal.S3200000)
    (s₂ := Cert.KernelIdeal.S100000) (0 : Fin 1) _ _ _ (ix1 e) rfl rfl
    (ix1 (⟨e.val - 3200000, by have := e.isLt; omega⟩ : Fin 100000))
    (fun b hb => by match b with | ⟨0, _⟩ => exact absurd rfl hb)
    (by show e.val - 3200000 + 3200000 = e.val; omega)).trans ?_
  rfl

/-! ## The column program's weights read at an index -/

/-- The index the column program's gather reads for edge `k`: the wrapped permutation entry, signed, clamped. -/
def revR (pm : IVec Cert.ReferenceIdeal.S3200000 32) (k : Fin 3200000) : Fin 3200000 :=
  ⟨min (Cert.ReferenceIdeal.Read.val_main_v4 (F := Ideal) pm (ix1 k)).toInt.toNat 3199999, by omega⟩

/-- A non-loop edge's weight in the column program. -/
theorem v18_lt (dw : FVec Ideal Cert.ReferenceIdeal.S3200000x1 .f32) (pm : IVec Cert.ReferenceIdeal.S3200000 32)
    (e : Fin 3300000) (h : e.val < 3200000) :
    Cert.ReferenceIdeal.Read.val_main_v18 (F := Ideal) dw pm (ix1 e)
      = wgt (dw (ix2 (revR pm ⟨e.val, h⟩) 0)) (dw (ix2 ⟨e.val, h⟩ 0)) := by
  rw [Cert.ReferenceIdeal.Read.val_main_v18_apply]
  unfold Cert.ReferenceIdeal.Read.val_main_v17
  refine (concatenate_pair_apply_left (t := Cert.ReferenceIdeal.S3300000x1) (s₁ := Cert.ReferenceIdeal.S3200000x1)
    (s₂ := Cert.ReferenceIdeal.S100000x1) (0 : Fin 2) _ _ _ (Cert.ReferenceIdeal.Read.idx_main_v18 (ix1 e)) rfl
    (ix2 (⟨e.val, h⟩ : Fin 3200000) 0)
    (fun b => by
      match b with
      | ⟨0, _⟩ => exact (Nat.div_one _).symm
      | ⟨1, _⟩ => rfl)).trans ?_
  show wgt (Host.gather recG2 dw (Cert.ReferenceIdeal.Read.val_main_v5 (F := Ideal) pm) (ix2 ⟨e.val, h⟩ 0))
    (dw (ix2 ⟨e.val, h⟩ 0)) = _
  rw [gather_col_apply]
  refine congrArg (fun m : Fin 3200000 => wgt (dw (ix2 m 0)) (dw (ix2 ⟨e.val, h⟩ 0))) (Fin.ext ?_)
  show min _ 3199999 = min _ 3199999
  unfold Cert.ReferenceIdeal.Read.val_main_v5
  rw [col_apply]

/-- A self-loop's weight in the column program is one. -/
theorem v18_ge (dw : FVec Ideal Cert.ReferenceIdeal.S3200000x1 .f32) (pm : IVec Cert.ReferenceIdeal.S3200000 32)
    (e : Fin 3300000) (h : 3200000 ≤ e.val) :
    Cert.ReferenceIdeal.Read.val_main_v18 (F := Ideal) dw pm (ix1 e) = Ideal.ofBits .f32 0x3F800000#32 := by
  rw [Cert.ReferenceIdeal.Read.val_main_v18_apply]
  unfold Cert.ReferenceIdeal.Read.val_main_v17
  refine (concatenate_pair_apply_right (t := Cert.ReferenceIdeal.S3300000x1) (s₁ := Cert.ReferenceIdeal.S3200000x1)
    (s₂ := Cert.ReferenceIdeal.S100000x1) (0 : Fin 2) _ _ _ (Cert.ReferenceIdeal.Read.idx_main_v18 (ix1 e)) rfl rfl
    (ix2 (⟨e.val - 3200000, by have := e.isLt; omega⟩ : Fin 100000) 0)
    (fun b hb => by
      match b with
      | ⟨0, _⟩ => exact absurd rfl hb
      | ⟨1, _⟩ => rfl)
    (by show e.val - 3200000 + 3200000 = e.val / 1; rw [Nat.div_one]; omega)).trans ?_
  rfl

/-! ## The two weight arrays are one array, of real numbers -/

/-- Both programs wrap the permutation's negative entries the same way. -/
theorem wrap_eq (pm : IVec Cert.KernelIdeal.S3200000 32) :
    Cert.KernelIdeal.Terms.wrapE pm = Cert.ReferenceIdeal.Read.val_main_v4 (F := Ideal) pm := rfl

/-- So both gathers read the same index. -/
theorem rev_eq (pm : IVec Cert.KernelIdeal.S3200000 32) (k : Fin 3200000) : revK pm k = revR pm k := rfl

/-- THE EDGE WEIGHTS AGREE: the weights computed on the flat logits are the weights computed on the one-column
    logits and flattened, for every permutation array. -/
theorem dfull_eq (dw : FVec Ideal Cert.KernelIdeal.S3200000x1 .f32) (pm : IVec Cert.KernelIdeal.S3200000 32) :
    Cert.KernelIdeal.Terms.dfullK (F := Ideal) dw pm = Cert.ReferenceIdeal.Read.val_main_v18 (F := Ideal) dw pm := by
  funext i
  obtain ⟨e, rfl⟩ : ∃ e : Fin 3300000, i = ix1 e := ⟨i 0, eq_ix1 i⟩
  by_cases h : e.val < 3200000
  · rw [dfullK_lt dw pm e h, v18_lt dw pm e h, rev_eq]
  · have h' : 3200000 ≤ e.val := Nat.le_of_not_lt h
    rw [dfullK_ge dw pm e h', v18_ge dw pm e h']

/-- EVERY EDGE WEIGHT IS A REAL NUMBER when the logits are: a non-loop edge's is the logistic function of a real, a
    self-loop's is one. -/
theorem dfull_real (dw : FVec Ideal Cert.ReferenceIdeal.S3200000x1 .f32) (pm : IVec Cert.ReferenceIdeal.S3200000 32)
    (hdw : ∀ i, ∃ r : ℝ, dw i = (r : EReal)) :
    ∀ e, ∃ r : ℝ, Cert.ReferenceIdeal.Read.val_main_v18 (F := Ideal) dw pm e = (r : EReal) := by
  intro i
  obtain ⟨e, rfl⟩ : ∃ e : Fin 3300000, i = ix1 e := ⟨i 0, eq_ix1 i⟩
  by_cases h : e.val < 3200000
  · rw [v18_lt dw pm e h]
    obtain ⟨a, ha⟩ := hdw (ix2 (revR pm ⟨e.val, h⟩) 0)
    obtain ⟨b, hb⟩ := hdw (ix2 ⟨e.val, h⟩ 0)
    rw [ha, hb]
    exact wgt_real a b
  · rw [v18_ge dw pm e (Nat.le_of_not_lt h), one_bits]
    exact ⟨1, rfl⟩

end Cert.EdgeWeights

end
-- ==== Proof.EdgeAlgebra.lean ====
/-
  The one algebraic law that joins the two programs, for a single edge and a single feature.

  With `a`, `b` the features at the edge's source and destination, `d` the edge's weight and
  `q`, `s` the degrees at its destination and source, the kernel's program computes
      a * (d * rsqrt (q * s)) - b * (d / q)
  and the reference
      d * (a / sqrt (q * s) - b / q).
  On the extended reals distributing `d` over a difference fails at the infinities, and
  `0 * rsqrt 0` and `0 / sqrt 0` are different junk values; so the law is stated for REAL
  `a b d q s` with `q * s` positive, where every operation stays inside the reals.
-/
import Idealize.ShloMosaic.PureOps.Ideal.Laws

noncomputable section

namespace Cert.EdgeAlgebra

open Idealize.ShloMosaic

/-- The two arrangements of one edge's message agree when everything is real and `q * s > 0`. -/
theorem edge_eq (a b d q s : ℝ) (hp : (0 : EReal) < (q : EReal) * (s : EReal)) :
    (a : EReal) * ((d : EReal) * Ideal.rsqrt ((q : EReal) * (s : EReal))) - (b : EReal) * Ideal.div (d : EReal) (q : EReal)
      = (d : EReal) * (Ideal.div (a : EReal) (Ideal.sqrt ((q : EReal) * (s : EReal))) - Ideal.div (b : EReal) (q : EReal)) := by
  have hqs : (q : EReal) * (s : EReal) = ((q * s : ℝ) : EReal) := (EReal.coe_mul q s).symm
  rw [hqs] at hp ⊢
  have hpos : 0 < q * s := by exact_mod_cast hp
  have hq : q ≠ 0 := by
    rintro rfl
    simp at hpos
  have hr : 0 < Real.sqrt (q * s) := Real.sqrt_pos.2 hpos
  rw [Ideal.rsqrt_coe, if_neg (not_lt.2 hpos.le), if_neg hpos.ne', Ideal.sqrt_coe, if_neg (not_lt.2 hpos.le),
    Ideal.div_coe hq, Ideal.div_coe hq, Ideal.div_coe hr.ne']
  norm_cast
  ring

end Cert.EdgeAlgebra

end
-- ==== Proof.MessageEq.lean ====
import proofs.«170964_j5660766896726_2_alg».proof.Proof.Gen.ReferenceIdeal.Read
import proofs.«170964_j5660766896726_2_alg».proof.Proof.MsgSpec
import proofs.«170964_j5660766896726_2_alg».proof.Proof.EdgeAlgebra
import proofs.«170964_j5660766896726_2_alg».proof.Proof.LibGatherScatter

/-! # The two programs' message arrays are one array

For a feature `f` and an edge `e`, with `a`, `b` the node features at the edge's source and destination, `w` the
edge's weight and `q`, `s` the degrees at its destination and source, one program computes the message
`a · (w · rsqrt (q · s)) − b · (w / q)` from two coefficient rows, the other `w · (a / sqrt (q · s) − b / q)`. Read at
an index, both are one edge's law over the reals, which holds when every quantity is a real number and `q · s` is
positive. Floats are extended reals throughout. -/

noncomputable section

namespace Cert.MessageEq

open Idealize.ShloMosaic Idealize.ShloMosaic.ValueIdx

/-- A flat row reshaped to a one-row array, read under a feature-by-edge index, is the row at the edge. -/
theorem row_apply {α : Type} (v : (⟨1, ![3300000]⟩ : Shape).Idx → α)
    (h : (⟨1, ![3300000]⟩ : Shape).ShapeCasts ⟨2, ![1, 3300000]⟩) (i : Cert.Spec.SFE.Idx) :
    shapeCast ⟨2, ![1, 3300000]⟩ v h (Cert.Spec.rowOf i) = v (ix1 ⟨(i 1).val, (i 1).isLt⟩) :=
  shapeCast_apply v h (Cert.Spec.rowOf i) (ix1 ⟨(i 1).val, (i 1).isLt⟩)
    (by rw [Shape.rowMajor_val_one, Shape.rowMajor_val_two]; show (i 1).val = 0 * 3300000 + (i 1).val; omega)

/-- The same at an index given by its coordinates. -/
theorem row_apply' {α : Type} (v : (⟨1, ![3300000]⟩ : Shape).Idx → α)
    (h : (⟨1, ![3300000]⟩ : Shape).ShapeCasts ⟨2, ![1, 3300000]⟩) (f : Fin 32) (e : Fin 3300000) :
    shapeCast ⟨2, ![1, 3300000]⟩ v h (Cert.Spec.rowOf (ix2 f e)) = v (ix1 e) :=
  row_apply v h (ix2 f e)

/-- The source coefficient `w · rsqrt (q · s)` read at an index. -/
theorem coefs_apply {s : Shape} (W Qv Sv : FVec Ideal s .f32) (j : s.Idx) :
    mulf W (Host.rsqrt (mulf Qv Sv)) j
      = FloatOps.mulf (W j) (FloatOps.hostUnary .rsqrt (FloatOps.mulf (Qv j) (Sv j))) := rfl

/-- The destination coefficient `w / q` read at an index. -/
theorem coefd_apply {s : Shape} (W Qv : FVec Ideal s .f32) (j : s.Idx) :
    Host.divf W Qv j = FloatOps.hostDivf (W j) (Qv j) := rfl

/-- One edge's law in the programs' spelling: for real features, weight and degrees with `q · s` positive, the
    message from the two coefficients is the weight times the difference of the two normalized features. -/
theorem edge_ideal (A B D Q S : Ideal .f32) (hA : ∃ r : ℝ, A = (r : EReal)) (hB : ∃ r : ℝ, B = (r : EReal))
    (hD : ∃ r : ℝ, D = (r : EReal)) (hQ : ∃ r : ℝ, Q = (r : EReal)) (hS : ∃ r : ℝ, S = (r : EReal))
    (hp : (0 : EReal) < FloatOps.mulf Q S) :
    FloatOps.subf (FloatOps.mulf A (FloatOps.mulf D (FloatOps.hostUnary .rsqrt (FloatOps.mulf Q S))))
        (FloatOps.mulf B (FloatOps.hostDivf D Q))
      = FloatOps.mulf D (FloatOps.subf (FloatOps.hostDivf A (FloatOps.hostUnary .sqrt (FloatOps.mulf Q S)))
          (FloatOps.hostDivf B Q)) := by
  obtain ⟨a, rfl⟩ := hA
  obtain ⟨b, rfl⟩ := hB
  obtain ⟨d, rfl⟩ := hD
  obtain ⟨q, rfl⟩ := hQ
  obtain ⟨s, rfl⟩ := hS
  exact Cert.EdgeAlgebra.edge_eq a b d q s hp

/-- THE MESSAGE ARRAYS AGREE: the message array built from the two coefficient rows is the other program's message
    array, when the node features, the edge weights and the degrees are real numbers and every product of an edge's
    two degrees is positive. -/
theorem msg_eq (y : FVec Ideal Cert.ReferenceIdeal.S32x100000 .f32) (dw : FVec Ideal Cert.ReferenceIdeal.S3200000x1 .f32)
    (ei : IVec Cert.ReferenceIdeal.S2x3300000 32) (pm : IVec Cert.ReferenceIdeal.S3200000 32)
    (h : (⟨1, ![3300000]⟩ : Shape).ShapeCasts ⟨2, ![1, 3300000]⟩)
    (hy : ∀ i, ∃ r : ℝ, y i = (r : EReal))
    (hd : ∀ e, ∃ r : ℝ, Cert.ReferenceIdeal.Read.val_main_v18 (F := Ideal) dw pm e = (r : EReal))
    (hq : ∀ e, ∃ r : ℝ, Cert.ReferenceIdeal.Read.val_main_v39 (F := Ideal) dw ei pm e = (r : EReal))
    (hs : ∀ e, ∃ r : ℝ, Cert.ReferenceIdeal.Read.val_main_v32 (F := Ideal) dw ei pm e = (r : EReal))
    (hp : ∀ e, (0 : EReal) < Cert.ReferenceIdeal.Read.val_main_v47 (F := Ideal) dw ei pm e) :
    Cert.Spec.msgArr (F := Ideal) (Cert.ReferenceIdeal.Read.val_main_v46 (F := Ideal) y ei) (Cert.ReferenceIdeal.Read.val_main_v58 (F := Ideal) y ei)
        (shapeCast ⟨2, ![1, 3300000]⟩ (mulf (Cert.ReferenceIdeal.Read.val_main_v18 (F := Ideal) dw pm)
          (Host.rsqrt (mulf (Cert.ReferenceIdeal.Read.val_main_v39 (F := Ideal) dw ei pm)
            (Cert.ReferenceIdeal.Read.val_main_v32 (F := Ideal) dw ei pm)))) h)
        (shapeCast ⟨2, ![1, 3300000]⟩ (Host.divf (Cert.ReferenceIdeal.Read.val_main_v18 (F := Ideal) dw pm)
          (Cert.ReferenceIdeal.Read.val_main_v39 (F := Ideal) dw ei pm)) h)
      = Cert.ReferenceIdeal.Read.val_main_v65 (F := Ideal) y dw ei pm := by
  funext i
  obtain ⟨f, e, rfl⟩ : ∃ (f : Fin 32) (e : Fin 3300000), i = ix2 f e := ⟨i 0, i 1, eq_ix2 i⟩
  -- every flat index the chain composes is the edge's
  have hidx : ∀ J : (⟨1, ![3300000]⟩ : Shape).Idx, J 0 = e → J = ix1 e := fun J hJ => by subst hJ; exact eq_ix1 J
  rw [Cert.ReferenceIdeal.Read.val_main_v65_apply, Cert.ReferenceIdeal.Read.val_main_v64_apply,
    Cert.ReferenceIdeal.Read.val_main_v63_apply, Cert.ReferenceIdeal.Read.val_main_v62_apply,
    Cert.ReferenceIdeal.Read.val_main_v51_apply, Cert.ReferenceIdeal.Read.val_main_v50_apply,
    Cert.ReferenceIdeal.Read.val_main_v49_apply, Cert.ReferenceIdeal.Read.val_main_v48_apply,
    Cert.ReferenceIdeal.Read.val_main_v61_apply, Cert.ReferenceIdeal.Read.val_main_v60_apply,
    Cert.ReferenceIdeal.Read.val_main_v59_apply, Cert.ReferenceIdeal.Read.val_main_v47_apply]
  rw [hidx (Cert.ReferenceIdeal.Read.idx_main_v63 (Cert.ReferenceIdeal.Read.idx_main_v64 (ix2 f e))) rfl,
    hidx (Cert.ReferenceIdeal.Read.idx_main_v49 (Cert.ReferenceIdeal.Read.idx_main_v50 (ix2 f e))) rfl,
    hidx (Cert.ReferenceIdeal.Read.idx_main_v59 (Cert.ReferenceIdeal.Read.idx_main_v60 (ix2 f e))) rfl]
  unfold Cert.Spec.msgArr
  rw [row_apply', row_apply', coefs_apply, coefd_apply]
  -- the gathered features are entries of the feature array
  have hA : ∃ r : ℝ, Cert.ReferenceIdeal.Read.val_main_v46 (F := Ideal) y ei (ix2 f e) = (r : EReal) := by
    unfold Cert.ReferenceIdeal.Read.val_main_v46
    obtain ⟨i', hi'⟩ := Cert.GS.gather_mem
      Cert.ReferenceIdeal.gather_S32x100000_S3300000x1_S32x3300000_0_1_n_n_1_1_321 y
      (Cert.ReferenceIdeal.Read.val_main_v45 (F := Ideal) ei) (ix2 f e)
    rw [hi']
    exact hy i'
  have hB : ∃ r : ℝ, Cert.ReferenceIdeal.Read.val_main_v58 (F := Ideal) y ei (ix2 f e) = (r : EReal) := by
    unfold Cert.ReferenceIdeal.Read.val_main_v58
    obtain ⟨i', hi'⟩ := Cert.GS.gather_mem
      Cert.ReferenceIdeal.gather_S32x100000_S3300000x1_S32x3300000_0_1_n_n_1_1_321 y
      (Cert.ReferenceIdeal.Read.val_main_v57 (F := Ideal) ei) (ix2 f e)
    rw [hi']
    exact hy i'
  have hD := hd (ix1 e)
  have hQ := hq (ix1 e)
  have hS := hs (ix1 e)
  have hP : (0 : EReal) < FloatOps.mulf (F := Ideal) (φ := .f32) (Cert.ReferenceIdeal.Read.val_main_v39 (F := Ideal) dw ei pm (ix1 e))
      (Cert.ReferenceIdeal.Read.val_main_v32 (F := Ideal) dw ei pm (ix1 e)) := by
    rw [← Cert.ReferenceIdeal.Read.val_main_v47_apply]
    exact hp (ix1 e)
  generalize Cert.ReferenceIdeal.Read.val_main_v46 (F := Ideal) y ei (ix2 f e) = A at hA ⊢
  generalize Cert.ReferenceIdeal.Read.val_main_v58 (F := Ideal) y ei (ix2 f e) = B at hB ⊢
  generalize Cert.ReferenceIdeal.Read.val_main_v18 (F := Ideal) dw pm (ix1 e) = D at hD ⊢
  generalize Cert.ReferenceIdeal.Read.val_main_v39 (F := Ideal) dw ei pm (ix1 e) = Q at hQ hP ⊢
  generalize Cert.ReferenceIdeal.Read.val_main_v32 (F := Ideal) dw ei pm (ix1 e) = S at hS hP ⊢
  exact edge_ideal A B D Q S hA hB hD hQ hS hP

end Cert.MessageEq

end
-- ==== Proof.Bridge.lean ====
/-
  The kernel's program and the reference compute the same intermediate arrays.

  Both programs take the two rows of the edge list, shift negative node indices up by the number of
  nodes before every GATHER, compute the same edge weights, scatter-add them onto the destination
  nodes to get the weighted degrees, and gather degrees and node features at the edges' ends. They
  differ in one place before the region: the kernel's program also shifts negative indices before
  the SCATTER, the reference does not (it drops them). When every destination index is
  non-negative the shift is the identity, so the degrees — and everything computed from them —
  agree. After the region, the kernel's program scatter-adds the message array, features by edges,
  along its second axis; the reference transposes the messages, scatter-adds along the first axis
  and transposes back: the same sums, read at swapped coordinates.
-/
import proofs.«170964_j5660766896726_2_alg».proof.Proof.KernelTerms
import proofs.«170964_j5660766896726_2_alg».proof.Proof.Gen.ReferenceIdeal.Read
import proofs.«170964_j5660766896726_2_alg».proof.Proof.LibGatherScatter
import proofs.«170964_j5660766896726_2_alg».proof.Proof.EdgeWeights
import Idealize.ShloMosaic.Lib.Affine

noncomputable section

namespace Cert.Bridge

open Idealize.ShloMosaic Idealize.ShloMosaic.ValueIdx Cert.KernelIdeal.Terms

variable (y : FVec Ideal Cert.KernelIdeal.S32x100000 .f32) (dw : FVec Ideal Cert.KernelIdeal.S3200000x1 .f32)
  (ei : IVec Cert.KernelIdeal.S2x3300000 32) (pm : IVec Cert.KernelIdeal.S3200000 32)

/-! ## The index rows -/

theorem src_eq : srcK ei = Cert.ReferenceIdeal.Read.val_main_v20 (F := Ideal) ei := rfl
theorem dst_eq : dstK ei = Cert.ReferenceIdeal.Read.val_main_v22 (F := Ideal) ei := rfl

/-- Shifting the negative entries up is the identity on a row with none. -/
theorem wrap_id (v : IVec Cert.KernelIdeal.S3300000 32) (h : ∀ e, 0 ≤ (v e).toInt) : wrapN v = v := by
  funext e
  have hc : IntOp.cmpi .slt (v e) (0#32 : BitVec 32) ≠ 1#1 := by
    intro hc
    have h1 := IntOp.cmpi_slt.1 hc
    rw [show (0#32 : BitVec 32).toInt = 0 by decide] at h1
    have h0 := h e
    omega
  show Scalar.select (IntOp.cmpi .slt (v e) (0#32 : BitVec 32)) (IntOp.addi (v e) (100000#32 : BitVec 32)) (v e) = v e
  unfold Scalar.select
  exact if_neg hc

/-! ## Degrees -/

/-- The weighted degrees agree once no destination index is negative. -/
theorem deg_eq (hdst : ∀ e, 0 ≤ (Cert.ReferenceIdeal.Read.val_main_v22 (F := Ideal) ei e).toInt) :
    degK (F := Ideal) dw ei pm = Cert.ReferenceIdeal.Read.val_main_v25 (F := Ideal) dw ei pm := by
  unfold degK
  rw [dst_eq, wrap_id _ hdst, Cert.EdgeWeights.dfull_eq, Cert.GS.scatter_deg_eq]
  rfl

theorem degs_eq (hdst : ∀ e, 0 ≤ (Cert.ReferenceIdeal.Read.val_main_v22 (F := Ideal) ei e).toInt) :
    degsK (F := Ideal) dw ei pm = Cert.ReferenceIdeal.Read.val_main_v32 (F := Ideal) dw ei pm := by
  unfold degsK
  rw [deg_eq dw ei pm hdst, src_eq, Cert.GS.gather_deg_eq]
  rfl

theorem degd_eq (hdst : ∀ e, 0 ≤ (Cert.ReferenceIdeal.Read.val_main_v22 (F := Ideal) ei e).toInt) :
    degdK (F := Ideal) dw ei pm = Cert.ReferenceIdeal.Read.val_main_v39 (F := Ideal) dw ei pm := by
  unfold degdK
  rw [deg_eq dw ei pm hdst, dst_eq, Cert.GS.gather_deg_eq]
  rfl

/-! ## Gathered node features -/

theorem ys_eq : ysK (F := Ideal) y ei = Cert.ReferenceIdeal.Read.val_main_v46 (F := Ideal) y ei := by
  unfold ysK
  rw [src_eq, Cert.GS.gather_feat_eq]
  rfl

theorem yd_eq : ydK (F := Ideal) y ei = Cert.ReferenceIdeal.Read.val_main_v58 (F := Ideal) y ei := by
  unfold ydK
  rw [dst_eq, Cert.GS.gather_feat_eq]
  rfl

/-! ## The two coefficient rows -/

theorem cs2_eq (hdst : ∀ e, 0 ≤ (Cert.ReferenceIdeal.Read.val_main_v22 (F := Ideal) ei e).toInt) :
    cs2K (F := Ideal) dw ei pm
      = shapeCast Cert.KernelIdeal.S1x3300000
          (mulf (Cert.ReferenceIdeal.Read.val_main_v18 (F := Ideal) dw pm)
            (Host.rsqrt (mulf (Cert.ReferenceIdeal.Read.val_main_v39 (F := Ideal) dw ei pm)
              (Cert.ReferenceIdeal.Read.val_main_v32 (F := Ideal) dw ei pm))))
          Cert.KernelIdeal.Facts₀.shapeCasts_S3300000_S1x3300000 := by
  unfold cs2K coefsK
  rw [Cert.EdgeWeights.dfull_eq, degd_eq dw ei pm hdst, degs_eq dw ei pm hdst]

theorem cd2_eq (hdst : ∀ e, 0 ≤ (Cert.ReferenceIdeal.Read.val_main_v22 (F := Ideal) ei e).toInt) :
    cd2K (F := Ideal) dw ei pm
      = shapeCast Cert.KernelIdeal.S1x3300000
          (Host.divf (Cert.ReferenceIdeal.Read.val_main_v18 (F := Ideal) dw pm)
            (Cert.ReferenceIdeal.Read.val_main_v39 (F := Ideal) dw ei pm))
          Cert.KernelIdeal.Facts₀.shapeCasts_S3300000_S1x3300000 := by
  unfold cd2K coefdK
  rw [Cert.EdgeWeights.dfull_eq, degd_eq dw ei pm hdst]

/-! ## Degrees are real numbers -/

/-- The all-zero pattern is the number zero. -/
theorem zero_bits : Ideal.ofBits .f32 0x00000000#32 = ((0 : ℝ) : EReal) := by
  simp [Ideal.ofBits, Ideal.ieee]

/-- A scalar constant broadcast to any shape is that constant at every index. -/
theorem bcast_const_apply (t : Shape) (hb : (⟨0, ![]⟩ : Shape).BroadcastsInDim t ![]) (b : BitVec 32) (i : t.Idx) :
    broadcastInDim t ![] hb (constant (F := Ideal) ⟨0, ![]⟩ .f32 b) i = Ideal.ofBits .f32 b := rfl

/-- Every weighted degree is a real number when every edge weight is: a finite sum of reals onto zero. -/
theorem deg_real (hw : ∀ e, ∃ r : ℝ, Cert.ReferenceIdeal.Read.val_main_v18 (F := Ideal) dw pm e = (r : EReal)) :
    ∀ n, ∃ r : ℝ, Cert.ReferenceIdeal.Read.val_main_v25 (F := Ideal) dw ei pm n = (r : EReal) := by
  intro n
  unfold Cert.ReferenceIdeal.Read.val_main_v25
  rw [Cert.GS.scatterAdd_ideal]
  refine Cert.GS.hostScatterAdd_real _ _ _ _ (fun i => ⟨0, ?_⟩) hw n
  unfold Cert.ReferenceIdeal.Read.val_main_v23 Cert.ReferenceIdeal.Read.val_main_cst_4
  exact (bcast_const_apply _ _ _ i).trans zero_bits

theorem degs_real (hw : ∀ e, ∃ r : ℝ, Cert.ReferenceIdeal.Read.val_main_v18 (F := Ideal) dw pm e = (r : EReal)) :
    ∀ e, ∃ r : ℝ, Cert.ReferenceIdeal.Read.val_main_v32 (F := Ideal) dw ei pm e = (r : EReal) := by
  intro e
  unfold Cert.ReferenceIdeal.Read.val_main_v32
  obtain ⟨n, hn⟩ := Cert.GS.gather_mem Cert.ReferenceIdeal.gather_S100000_S3300000x1_S3300000_n_0_n_n_0_1_1
    (Cert.ReferenceIdeal.Read.val_main_v25 (F := Ideal) dw ei pm) (Cert.ReferenceIdeal.Read.val_main_v31 (F := Ideal) ei) e
  rw [hn]
  exact deg_real dw ei pm hw n

theorem degd_real (hw : ∀ e, ∃ r : ℝ, Cert.ReferenceIdeal.Read.val_main_v18 (F := Ideal) dw pm e = (r : EReal)) :
    ∀ e, ∃ r : ℝ, Cert.ReferenceIdeal.Read.val_main_v39 (F := Ideal) dw ei pm e = (r : EReal) := by
  intro e
  unfold Cert.ReferenceIdeal.Read.val_main_v39
  obtain ⟨n, hn⟩ := Cert.GS.gather_mem Cert.ReferenceIdeal.gather_S100000_S3300000x1_S3300000_n_0_n_n_0_1_1
    (Cert.ReferenceIdeal.Read.val_main_v25 (F := Ideal) dw ei pm) (Cert.ReferenceIdeal.Read.val_main_v38 (F := Ideal) ei) e
  rw [hn]
  exact deg_real dw ei pm hw n

/-! ## After the region: the messages summed onto their destinations -/

/-- The zero arrays the two scatters start from agree at swapped coordinates. -/
theorem zeros_swap (n : Fin 100000) (f : Fin 32) :
    Cert.ReferenceIdeal.Read.val_main_v67 (F := Ideal) (ix2 n f)
      = (broadcastInDim Cert.KernelIdeal.S32x100000 ![] Cert.KernelIdeal.Facts₀.bcast_S_S32x100000
          (constant (F := Ideal) Cert.KernelIdeal.S_ .f32 0x00000000#32)) (ix2 f n) := by
  simp only [Cert.ReferenceIdeal.Read.val_main_v67, Cert.ReferenceIdeal.Read.val_main_cst_13, broadcastInDim, constant]

/-- The arrays of ones the two results are multiplied by agree. -/
theorem ones_eq (i : Cert.KernelIdeal.S32x100000.Idx) :
    (broadcastInDim Cert.KernelIdeal.S32x100000 ![] Cert.KernelIdeal.Facts₀.bcast_S_S32x100000
        (constant (F := Ideal) Cert.KernelIdeal.S_ .f32 0x3F800000#32)) i
      = Cert.ReferenceIdeal.Read.val_main_v71 (F := Ideal) i := by
  simp only [Cert.ReferenceIdeal.Read.val_main_v71, Cert.ReferenceIdeal.Read.val_main_cst_14, broadcastInDim, constant]

/-- A product with a scatter-add, read at an index: the factor times the exact sum, for any arrays. -/
theorem mul_scatter_apply {s si su : Shape} (d : ScatterDims s si su) {w : Nat} (o x : FVec Ideal s .f32)
    (idx : IVec si w) (u : FVec Ideal su .f32) (i : s.Idx) :
    mulf o (Host.scatterAdd d x idx u) i = FloatOps.mulf (o i) (Ideal.hostScatterAdd d x idx u i) := rfl

/-- A product with a transposed scatter-add, read at an index, for any arrays. -/
theorem mul_transpose_scatter_apply {s si su t : Shape} (d : ScatterDims s si su) {w : Nat} (o : FVec Ideal t .f32)
    (x : FVec Ideal s .f32) (idx : IVec si w) (u : FVec Ideal su .f32) (perm : List (Fin s.rank))
    (h : s.Transposes perm t) (i : t.Idx) :
    mulf o (transpose t perm (Host.scatterAdd d x idx u) h) i
      = FloatOps.mulf (o i) (transpose t perm (Ideal.hostScatterAdd d x idx u) h i) := rfl

/-- The kernel's program's tail applied to the reference's message array is the reference's result. -/
theorem tail_eq (hdst : ∀ e, 0 ≤ (Cert.ReferenceIdeal.Read.val_main_v22 (F := Ideal) ei e).toInt) :
    tailK (F := Ideal) ei (Cert.ReferenceIdeal.Read.val_main_v65 (F := Ideal) y dw ei pm)
      = Cert.ReferenceIdeal.Read.val_main_v72 (F := Ideal) y dw ei pm := by
  funext i
  obtain ⟨f, n, rfl⟩ : ∃ (f : Fin 32) (n : Fin 100000), i = ix2 f n := ⟨i 0, i 1, eq_ix2 i⟩
  unfold tailK
  rw [mul_scatter_apply, dst_eq, wrap_id _ hdst, ones_eq]
  unfold Cert.ReferenceIdeal.Read.val_main_v72 Cert.ReferenceIdeal.Read.val_main_v70 Cert.ReferenceIdeal.Read.val_main_v69
    Cert.ReferenceIdeal.Read.val_main_v66 Cert.ReferenceIdeal.Read.val_main_v68
  rw [mul_transpose_scatter_apply]
  unfold colN
  have hz := zeros_swap
  generalize Cert.ReferenceIdeal.Read.val_main_v65 (F := Ideal) y dw ei pm = u
  generalize Cert.ReferenceIdeal.Read.val_main_v22 (F := Ideal) ei = v
  generalize Cert.ReferenceIdeal.Read.val_main_v67 (F := Ideal) = x' at hz ⊢
  generalize (broadcastInDim Cert.KernelIdeal.S32x100000 ![] Cert.KernelIdeal.Facts₀.bcast_S_S32x100000
      (constant (F := Ideal) Cert.KernelIdeal.S_ .f32 0x00000000#32)) = x at hz ⊢
  rw [Cert.GS.scatter_transposed_chain _ u x x' hz]

end Cert.Bridge

end
-- ==== Proof.lean ====
/-
  The five claims.

  The program computes one step of normalized graph diffusion. For every edge e = (src, dst) with
  weight w (the logistic function of a symmetrized distance logit; one for the self-loops) and with
  deg the weighted in-degree of a node, the message of feature row f along e is
      y (f, src) * (w * rsqrt (deg dst * deg src)) - y (f, dst) * (w / deg dst)
  in the kernel's program — the region computes exactly this product-and-difference from four arrays
  prepared on the host — and
      w * (y (f, src) / sqrt (deg dst * deg src) - y (f, dst) / deg dst)
  in the reference; both then sum the messages onto the destination nodes.

  Frames: the region's blocks are 65536 edges wide over 51 grid points, the last block of every
  window reaching past the array's end; the body obligation states the staging buffers on the
  columns inside the array only, and the run terminates without a fault with the arguments unchanged
  (no precondition is used). The reference has no region: its frame is its run with the result dropped.

  The algebraic claim uses the whole precondition: finite features and logits make every quantity a
  real number; destination indices in range make the kernel's program's index shift before its two
  scatters the identity, so that the two programs' degrees and final sums range over the same edges;
  and the positivity of deg dst * deg src, the reference's radicand, keeps both arrangements inside
  the reals, where distributing w over the difference is valid.
-/
import proofs.«170964_j5660766896726_2_alg».proof.Defs
import proofs.«170964_j5660766896726_2_alg».proof.Proof.Gen.Kernel
import proofs.«170964_j5660766896726_2_alg».proof.Proof.Gen.KernelIdeal
import proofs.«170964_j5660766896726_2_alg».proof.Proof.Gen.ReferenceIdeal
import proofs.«170964_j5660766896726_2_alg».proof.Proof.Gen.Pre_finite_inputs
import proofs.«170964_j5660766896726_2_alg».proof.Proof.Gen.ReferenceIdeal.Run
import proofs.«170964_j5660766896726_2_alg».proof.Proof.Gen.ReferenceIdeal.Read
import proofs.«170964_j5660766896726_2_alg».proof.Proof.BodyBits
import proofs.«170964_j5660766896726_2_alg».proof.Proof.KernelRun
import proofs.«170964_j5660766896726_2_alg».proof.Proof.PreDecode
import proofs.«170964_j5660766896726_2_alg».proof.Proof.EdgeWeights
import proofs.«170964_j5660766896726_2_alg».proof.Proof.MessageEq
import proofs.«170964_j5660766896726_2_alg».proof.Proof.Bridge
import Idealize.ShloMosaic.Adequacy
import Idealize.ShloMosaic.Init

noncomputable section

namespace Cert.Proof

open Idealize.ShloMosaic Idealize.SL.Sem

/-- Under the precondition the kernel's program's result term is the reference's. -/
theorem value_eq (y : FVec Ideal Cert.KernelIdeal.S32x100000 .f32) (dw : FVec Ideal Cert.KernelIdeal.S3200000x1 .f32)
    (ei : IVec Cert.KernelIdeal.S2x3300000 32) (pm : IVec Cert.KernelIdeal.S3200000 32)
    (h : Cert.Pre_finite_inputs.fn (F := Ideal) y dw ei pm = fun _ => 1#1) :
    Cert.KernelIdeal.Terms.tailK (F := Ideal) ei
        (Cert.Spec.msgArr (Cert.KernelIdeal.Terms.ysK y ei) (Cert.KernelIdeal.Terms.ydK y ei)
          (Cert.KernelIdeal.Terms.cs2K dw ei pm) (Cert.KernelIdeal.Terms.cd2K dw ei pm))
      = Cert.ReferenceIdeal.Read.val_main_v72 (F := Ideal) y dw ei pm := by
  obtain ⟨hy, hdw, hrange, hpos⟩ := Cert.PreDecode.decode y dw ei pm h
  have hdst : ∀ e, 0 ≤ (Cert.ReferenceIdeal.Read.val_main_v22 (F := Ideal) ei e).toInt := fun e => (hrange e).1
  have hw := Cert.EdgeWeights.dfull_real dw pm hdw
  rw [Cert.Bridge.ys_eq, Cert.Bridge.yd_eq, Cert.Bridge.cs2_eq dw ei pm hdst, Cert.Bridge.cd2_eq dw ei pm hdst,
    Cert.MessageEq.msg_eq y dw ei pm Cert.KernelIdeal.Facts₀.shapeCasts_S3300000_S1x3300000 hy hw
      (Cert.Bridge.degd_real dw ei pm hw) (Cert.Bridge.degs_real dw ei pm hw) hpos,
    Cert.Bridge.tail_eq y dw ei pm hdst]

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end; the kernel's result array is its named term, which under the precondition is the
    reference's last stage; the reference's is that stage of arguments that agree. -/
theorem algebraic : Cert.algebraic_KernelIdeal_ReferenceIdeal := by
  intro m ρ m' ρ' hpre hagree
  refine ⟨fun c => Cert.ReferenceIdeal.Read.val_main_v72 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, (h c).2⟩) (Cert.KernelIdeal.Hand.kernel_run m ρ)
    exact (h c).1.trans (value_eq _ _ _ _ (hpre c))
  · refine (θ_run Cert.ReferenceIdeal.defs _ _).mono (fun r h c => ⟨?_, (h c).2⟩)
      (Cert.ReferenceIdeal.Value.run (F := Ideal) m' ρ')
    rw [(h c).1, Cert.ReferenceIdeal.Read.val_main_v72_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
